-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128 : Shape := ⟨2, ![16, 128]⟩
abbrev S32x32x1x1 : Shape := ⟨4, ![32, 32, 1, 1]⟩
abbrev S50000x32 : Shape := ⟨2, ![50000, 32]⟩
abbrev S_ : Shape := ⟨0, ![]⟩

class Facts : Prop where
  bcast_S_S32x32x1x1 : S_.BroadcastsInDim S32x32x1x1 (![] : Fin 0 → Fin S32x32x1x1.rank)
  reducesTo_S32x32x1x1_S_d0_1_2_3 : S32x32x1x1.ReducesTo [0, 1, 2, 3] S_
  h_S_ : 0 < S_.numel
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg5 : FVec F S50000x32 .f32) (main_arg6 : FVec F S50000x32 .f32) (main_v13 : IVec S_ 1) (main_v16 : IVec S32x32x1x1 1) : IVec S_ 1 :=
  let main_c_5 : IVec S_ 1 := constantI S_ 1 1#1
  let main_v17 : IVec S_ 1 := (fun x v => Host.reduce IntOp.andi x v reducesTo_S32x32x1x1_S_d0_1_2_3 h_S_) main_v16 main_c_5
  let main_v18 : IVec S_ 1 := andi main_v13 main_v17
  let main_v19 : FVec F S50000x32 .f32 := Host.absf main_arg5
  let main_cst_6 : FVec F S_ .f32 := constant S_ .f32 0x7F800000#32
  let main_v20 : FVec F S50000x32 .f32 := broadcastInDim S50000x32 ![] bcast_S_S50000x32 main_cst_6
  let main_v21 : IVec S50000x32 1 := cmpf .olt main_v19 main_v20
  let main_c_7 : IVec S_ 1 := constantI S_ 1 1#1
  let main_v22 : IVec S_ 1 := (fun x v => Host.reduce IntOp.andi x v reducesTo_S50000x32_S_d0_1 h_S_) main_v21 main_c_7
  let main_v23 : IVec S_ 1 := andi main_v18 main_v22
  let main_v24 : FVec F S50000x32 .f32 := Host.absf main_arg6
  let main_cst_8 : FVec F S_ .f32 := constant S_ .f32 0x7F800000#32
  let main_v25 : FVec F S50000x32 .f32 := broadcastInDim S50000x32 ![] bcast_S_S50000x32 main_cst_8
  let main_v26 : IVec S50000x32 1 := cmpf .olt main_v24 main_v25
  let main_c_9 : IVec S_ 1 := constantI S_ 1 1#1
  let main_v27 : IVec S_ 1 := (fun x v => Host.reduce IntOp.andi x v reducesTo_S50000x32_S_d0_1 h_S_) main_v26 main_c_9
  let main_v28 : IVec S_ 1 := andi main_v23 main_v27
  main_v28

def fn {F : FTy → Type} [FloatOps F] (main_arg0 : IVec S16x128 32) (main_arg1 : FVec F S32x32x1x1 .f32) (main_arg2 : FVec F S32x32x1x1 .f32) (main_arg3 : FVec F S32x32x1x1 .f32) (main_arg4 : FVec F S32x32x1x1 .f32) (main_arg5 : FVec F S50000x32 .f32) (main_arg6 : FVec F S50000x32 .f32) : IVec S_ 1 :=
  let main_v0 : FVec F S32x32x1x1 .f32 := Host.absf main_arg1
  let main_cst : FVec F S_ .f32 := constant S_ .f32 0x7F800000#32
  let main_v1 : FVec F S32x32x1x1 .f32 := broadcastInDim S32x32x1x1 ![] bcast_S_S32x32x1x1 main_cst
  let main_v2 : IVec S32x32x1x1 1 := cmpf .olt main_v0 main_v1
  let main_c : IVec S_ 1 := constantI S_ 1 1#1
  let main_v3 : IVec S_ 1 := (fun x v => Host.reduce IntOp.andi x v reducesTo_S32x32x1x1_S_d0_1_2_3 h_S_) main_v2 main_c
  let main_v4 : FVec F S32x32x1x1 .f32 := Host.absf main_arg2
  let main_cst_0 : FVec F S_ .f32 := constant S_ .f32 0x7F800000#32
  let main_v5 : FVec F S32x32x1x1 .f32 := broadcastInDim S32x32x1x1 ![] bcast_S_S32x32x1x1 main_cst_0
  let main_v6 : IVec S32x32x1x1 1 := cmpf .olt main_v4 main_v5
  let main_c_1 : IVec S_ 1 := constantI S_ 1 1#1
  let main_v7 : IVec S_ 1 := (fun x v => Host.reduce IntOp.andi x v reducesTo_S32x32x1x1_S_d0_1_2_3 h_S_) main_v6 main_c_1
  let main_v8 : IVec S_ 1 := andi main_v3 main_v7
  let main_v9 : FVec F S32x32x1x1 .f32 := Host.absf main_arg3
  let main_cst_2 : FVec F S_ .f32 := constant S_ .f32 0x7F800000#32
  let main_v10 : FVec F S32x32x1x1 .f32 := broadcastInDim S32x32x1x1 ![] bcast_S_S32x32x1x1 main_cst_2
  let main_v11 : IVec S32x32x1x1 1 := cmpf .olt main_v9 main_v10
  let main_c_3 : IVec S_ 1 := constantI S_ 1 1#1
  let main_v12 : IVec S_ 1 := (fun x v => Host.reduce IntOp.andi x v reducesTo_S32x32x1x1_S_d0_1_2_3 h_S_) main_v11 main_c_3
  let main_v13 : IVec S_ 1 := andi main_v8 main_v12
  let main_v14 : FVec F S32x32x1x1 .f32 := Host.absf main_arg4
  let main_cst_4 : FVec F S_ .f32 := constant S_ .f32 0x7F800000#32
  let main_v15 : FVec F S32x32x1x1 .f32 := broadcastInDim S32x32x1x1 ![] bcast_S_S32x32x1x1 main_cst_4
  let main_v16 : IVec S32x32x1x1 1 := cmpf .olt main_v14 main_v15
  fn_part1 (F := F) main_arg5 main_arg6 main_v13 main_v16
-- ==== Kernel.lean ====
abbrev S16x128 : Shape := ⟨2, ![16, 128]⟩
abbrev S32x32x1x1 : Shape := ⟨4, ![32, 32, 1, 1]⟩
abbrev S50000x32 : Shape := ⟨2, ![50000, 32]⟩
abbrev S32x32 : Shape := ⟨2, ![32, 32]⟩
abbrev S_ : Shape := ⟨0, ![]⟩
abbrev S16x128x1 : Shape := ⟨3, ![16, 128, 1]⟩
abbrev S16x128x32 : Shape := ⟨3, ![16, 128, 32]⟩
abbrev S16x128x32x32 : Shape := ⟨4, ![16, 128, 32, 32]⟩
abbrev S1x128x32 : Shape := ⟨3, ![1, 128, 32]⟩
abbrev S1x128x32x32 : Shape := ⟨4, ![1, 128, 32, 32]⟩
abbrev S128x32 : Shape := ⟨2, ![128, 32]⟩
abbrev S128x1x32 : Shape := ⟨3, ![128, 1, 32]⟩
abbrev S1x32x32 : Shape := ⟨3, ![1, 32, 32]⟩
abbrev S128x32x32 : Shape := ⟨3, ![128, 32, 32]⟩
abbrev S16x127x32x32 : Shape := ⟨4, ![16, 127, 32, 32]⟩
abbrev S65024x32 : Shape := ⟨2, ![65024, 32]⟩
abbrev S65024x32x32 : Shape := ⟨3, ![65024, 32, 32]⟩
abbrev S1016x32 : Shape := ⟨2, ![1016, 32]⟩
abbrev S1016x32x32 : Shape := ⟨3, ![1016, 32, 32]⟩
abbrev S1016x32x1 : Shape := ⟨3, ![1016, 32, 1]⟩
abbrev S16x127x32x32x32x1x1x1 : Shape := ⟨8, ![16, 127, 32, 32, 32, 1, 1, 1]⟩
abbrev S16x128x32x32x1x1x1 : Shape := ⟨7, ![16, 128, 32, 32, 1, 1, 1]⟩
abbrev S1x1x32x32x1x1 : Shape := ⟨6, ![1, 1, 32, 32, 1, 1]⟩
abbrev S16x128x32x32x1x1 : Shape := ⟨6, ![16, 128, 32, 32, 1, 1]⟩

abbrev nBuf : Space → Nat
  | .hbm => 43
  | .vmem => 18
  | .smem => 0
  | _ => 0

abbrev bufTy : (tb : Table) → Fin (tcTables nBuf tb) → BufTy
  | .hbm, ⟨0, _⟩ => ⟨S16x128, .i32⟩
  | .hbm, ⟨1, _⟩ => ⟨S32x32x1x1, .f32⟩
  | .hbm, ⟨2, _⟩ => ⟨S32x32x1x1, .f32⟩
  | .hbm, ⟨3, _⟩ => ⟨S32x32x1x1, .f32⟩
  | .hbm, ⟨4, _⟩ => ⟨S32x32x1x1, .f32⟩
  | .hbm, ⟨5, _⟩ => ⟨S50000x32, .f32⟩
  | .hbm, ⟨6, _⟩ => ⟨S50000x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S_, .i32⟩
  | .hbm, ⟨12, _⟩ => ⟨S16x128, .i32⟩
  | .hbm, ⟨13, _⟩ => ⟨S16x128, .i1⟩
  | .hbm, ⟨14, _⟩ => ⟨S_, .i32⟩
  | .hbm, ⟨15, _⟩ => ⟨S16x128, .i32⟩
  | .hbm, ⟨16, _⟩ => ⟨S16x128, .i32⟩
  | .hbm, ⟨17, _⟩ => ⟨S16x128, .i32⟩
  | .hbm, ⟨18, _⟩ => ⟨S16x128x1, .i32⟩
  | .hbm, ⟨19, _⟩ => ⟨S16x128x32, .f32⟩
  | .hbm, ⟨20, _⟩ => ⟨S_, .i32⟩
  | .hbm, ⟨21, _⟩ => ⟨S16x128, .i32⟩
  | .hbm, ⟨22, _⟩ => ⟨S16x128, .i1⟩
  | .hbm, ⟨23, _⟩ => ⟨S_, .i32⟩
  | .hbm, ⟨24, _⟩ => ⟨S16x128, .i32⟩
  | .hbm, ⟨25, _⟩ => ⟨S16x128, .i32⟩
  | .hbm, ⟨26, _⟩ => ⟨S16x128, .i32⟩
  | .hbm, ⟨27, _⟩ => ⟨S16x128x1, .i32⟩
  | .hbm, ⟨28, _⟩ => ⟨S16x128x32, .f32⟩
  | .hbm, ⟨29, _⟩ => ⟨S16x128x32x32, .f32⟩
  | .hbm, ⟨30, _⟩ => ⟨S16x128x32x32, .f32⟩
  | .hbm, ⟨31, _⟩ => ⟨S16x127x32x32, .f32⟩
  | .hbm, ⟨32, _⟩ => ⟨S16x127x32x32, .f32⟩
  | .hbm, ⟨33, _⟩ => ⟨S65024x32, .f32⟩
  | .hbm, ⟨34, _⟩ => ⟨S65024x32, .f32⟩
  | .hbm, ⟨35, _⟩ => ⟨S65024x32x32, .f32⟩
  | .hbm, ⟨36, _⟩ => ⟨S16x127x32x32x32x1x1x1, .f32⟩
  | .hbm, ⟨37, _⟩ => ⟨S16x128x32x32x1x1x1, .f32⟩
  | .hbm, ⟨38, _⟩ => ⟨S16x128x32x32x1x1x1, .f32⟩
  | .hbm, ⟨39, _⟩ => ⟨S1x1x32x32x1x1, .f32⟩
  | .hbm, ⟨40, _⟩ => ⟨S16x128x32x32x1x1, .f32⟩
  | .hbm, ⟨41, _⟩ => ⟨S1x1x32x32x1x1, .f32⟩
  | .hbm, ⟨42, _⟩ => ⟨S16x128x32x32x1x1, .f32⟩
  | .local _ .vmem, ⟨0, _⟩ => ⟨S1x128x32, .f32⟩
  | .local _ .vmem, ⟨1, _⟩ => ⟨S1x128x32, .f32⟩
  | .local _ .vmem, ⟨2, _⟩ => ⟨S1x128x32, .f32⟩
  | .local _ .vmem, ⟨3, _⟩ => ⟨S1x128x32, .f32⟩
  | .local _ .vmem, ⟨4, _⟩ => ⟨S32x32, .f32⟩
  | .local _ .vmem, ⟨5, _⟩ => ⟨S32x32, .f32⟩
  | .local _ .vmem, ⟨6, _⟩ => ⟨S1x128x32x32, .f32⟩
  | .local _ .vmem, ⟨7, _⟩ => ⟨S1x128x32x32, .f32⟩
  | .local _ .vmem, ⟨8, _⟩ => ⟨S1x128x32x32, .f32⟩
  | .local _ .vmem, ⟨9, _⟩ => ⟨S1x128x32x32, .f32⟩
  | .local _ .vmem, ⟨10, _⟩ => ⟨S1016x32, .f32⟩
  | .local _ .vmem, ⟨11, _⟩ => ⟨S1016x32, .f32⟩
  | .local _ .vmem, ⟨12, _⟩ => ⟨S1016x32, .f32⟩
  | .local _ .vmem, ⟨13, _⟩ => ⟨S1016x32, .f32⟩
  | .local _ .vmem, ⟨14, _⟩ => ⟨S32x32, .f32⟩
  | .local _ .vmem, ⟨15, _⟩ => ⟨S32x32, .f32⟩
  | .local _ .vmem, ⟨16, _⟩ => ⟨S1016x32x32, .f32⟩
  | .local _ .vmem, ⟨17, _⟩ => ⟨S1016x32x32, .f32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1016x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1016x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1016x32x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32x32x1x1_S32x32 : S32x32x1x1.ShapeCasts S32x32
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S128x32_S128x1x32 : S128x32.ShapeCasts S128x1x32
  shapeCasts_S32x32_S1x32x32 : S32x32.ShapeCasts S1x32x32
  broadcasts_S128x1x32_S128x32x32 : S128x1x32.Broadcasts S128x32x32
  broadcasts_S1x32x32_S128x32x32 : S1x32x32.Broadcasts S128x32x32
  inb_S1x128x32x32_S1x128x32x32_0_0_0_0 : ∀ a, (![0, 0, 0, 0] : Fin 4 → Nat) a + S1x128x32x32.size a ≤ S1x128x32x32.size a
  h_S1x128x32x32 : 0 < S1x128x32x32.numel
  shapeCasts_S1x128x32x32_S128x32x32 : S1x128x32x32.ShapeCasts S128x32x32
  shapeCasts_S128x32x32_S1x128x32x32 : S128x32x32.ShapeCasts S1x128x32x32
  slices_S16x128x32x32_S16x127x32x32_0_0_0_0 : S16x128x32x32.Slices ![0, 0, 0, 0] S16x127x32x32
  shapeCasts_S16x127x32x32_S65024x32 : S16x127x32x32.ShapeCasts S65024x32
  inb_S1016x32_S1016x32_0_0 : ∀ a, (![0, 0] : Fin 2 → Nat) a + S1016x32.size a ≤ S1016x32.size a
  h_S1016x32 : 0 < S1016x32.numel
  shapeCasts_S1016x32_S1016x32 : S1016x32.ShapeCasts S1016x32
  shapeCasts_S1016x32_S1016x32x1 : S1016x32.ShapeCasts S1016x32x1
  broadcasts_S1016x32x1_S1016x32x32 : S1016x32x1.Broadcasts S1016x32x32
  broadcasts_S1x32x32_S1016x32x32 : S1x32x32.Broadcasts S1016x32x32
  inb_S1016x32x32_S1016x32x32_0_0_0 : ∀ a, (![0, 0, 0] : Fin 3 → Nat) a + S1016x32x32.size a ≤ S1016x32x32.size a
  h_S1016x32x32 : 0 < S1016x32x32.numel
  shapeCasts_S65024x32x32_S16x127x32x32x32x1x1x1 : S65024x32x32.ShapeCasts S16x127x32x32x32x1x1x1
  shapeCasts_S16x128x32x32_S16x128x32x32x1x1x1 : S16x128x32x32.ShapeCasts S16x128x32x32x1x1x1
  shapeCasts_S32x32_S1x1x32x32x1x1 : S32x32.ShapeCasts S1x1x32x32x1x1
  bcast_S1x1x32x32x1x1_S16x128x32x32x1x1_0_1_2_3_4_5 : S1x1x32x32x1x1.BroadcastsInDim S16x128x32x32x1x1 (![0, 1, 2, 3, 4, 5] : Fin 6 → Fin S16x128x32x32x1x1.rank)
  gather_S50000x32_S16x128x1_S16x128x32_2_0_n_n_0_2_132_wf : GatherDims.WF S50000x32 S16x128x1 S16x128x32 [2] [0] [] [0] [] 2 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32.size a ≤ S16x128x32.size a
  hwx0_0 : ∀ i : grid0.Coords, EltTy.bits .f32 = 32 ∨ (Rect.block (s := S16x128x32) S1x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32.size a ≤ S16x128x32.size a
  hwx0_1 : ∀ i : grid0.Coords, EltTy.bits .f32 = 32 ∨ (Rect.block (s := S16x128x32) S1x128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x32.size a ≤ S16x128x32x32.size a
  hwx0_4 : ∀ i : grid0.Coords, EltTy.bits .f32 = 32 ∨ (Rect.block (s := S16x128x32x32) S1x128x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32x32.size a ≤ S16x128x32x32.size a
  hwx0_5 : ∀ i : grid0.Coords, EltTy.bits .f32 = 32 ∨ (Rect.block (s := S16x128x32x32) S1x128x32x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1016x32.size a ≤ S65024x32.size a
  hwx1_0 : ∀ i : grid1.Coords, EltTy.bits .f32 = 32 ∨ (Rect.block (s := S65024x32) S1016x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1016x32.size a ≤ S65024x32.size a
  hwx1_1 : ∀ i : grid1.Coords, EltTy.bits .f32 = 32 ∨ (Rect.block (s := S65024x32) S1016x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1016x32x32.size a ≤ S65024x32x32.size a
  hwx1_4 : ∀ i : grid1.Coords, EltTy.bits .f32 = 32 ∨ (Rect.block (s := S65024x32x32) S1016x32x32.size (cc1_transform_4 i) (hinb1_4 i)).WholeWords (EltTy.packing .f32)

variable [Facts₀]

def gather_S50000x32_S16x128x1_S16x128x32_2_0_n_n_0_2_132 : GatherDims S50000x32 S16x128x1 S16x128x32 where
  offsetDims := [2]
  collapsedSliceDims := [0]
  operandBatchingDims := []
  startIndicesBatchingDims := []
  startIndexMap := [0]
  indexVectorDim := 2
  sliceSizes := ![1, 32]
  wf := gather_S50000x32_S16x128x1_S16x128x32_2_0_n_n_0_2_132_wf

abbrev win0_0 : Pipeline.Window sig grid0 :=
  Pipeline.Window.ofSpec (Memref.whole main_v10) S1x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x128x32x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x128x32x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S1016x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1016x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1016x32x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x128 : Shape := ⟨2, ![16, 128]⟩
abbrev S32x32x1x1 : Shape := ⟨4, ![32, 32, 1, 1]⟩
abbrev S50000x32 : Shape := ⟨2, ![50000, 32]⟩
abbrev S_ : Shape := ⟨0, ![]⟩
abbrev S16x128x1 : Shape := ⟨3, ![16, 128, 1]⟩
abbrev S16x128x32 : Shape := ⟨3, ![16, 128, 32]⟩
abbrev S16x128x32x1x1 : Shape := ⟨5, ![16, 128, 32, 1, 1]⟩
abbrev S16x128x1x32x1x1x1 : Shape := ⟨7, ![16, 128, 1, 32, 1, 1, 1]⟩
abbrev S1x1x32x32x1x1x1 : Shape := ⟨7, ![1, 1, 32, 32, 1, 1, 1]⟩
abbrev S16x128x32x32x1x1x1 : Shape := ⟨7, ![16, 128, 32, 32, 1, 1, 1]⟩
abbrev S16x128x32x32x1x1 : Shape := ⟨6, ![16, 128, 32, 32, 1, 1]⟩
abbrev S16x127x32x32x1x1x1 : Shape := ⟨7, ![16, 127, 32, 32, 1, 1, 1]⟩
abbrev S16x127x32x32x1x1x1x1x1 : Shape := ⟨9, ![16, 127, 32, 32, 1, 1, 1, 1, 1]⟩
abbrev S1x1x1x32x32x1x1x1x1 : Shape := ⟨9, ![1, 1, 1, 32, 32, 1, 1, 1, 1]⟩
abbrev S16x127x32x32x32x1x1x1x1 : Shape := ⟨9, ![16, 127, 32, 32, 32, 1, 1, 1, 1]⟩
abbrev S16x127x32x32x32x1x1x1 : Shape := ⟨8, ![16, 127, 32, 32, 32, 1, 1, 1]⟩
abbrev S1x1x32x32x1x1 : Shape := ⟨6, ![1, 1, 32, 32, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S16x128, .i32⟩
  | .hbm, ⟨1, _⟩ => ⟨S32x32x1x1, .f32⟩
  | .hbm, ⟨2, _⟩ => ⟨S32x32x1x1, .f32⟩
  | .hbm, ⟨3, _⟩ => ⟨S32x32x1x1, .f32⟩
  | .hbm, ⟨4, _⟩ => ⟨S32x32x1x1, .f32⟩
  | .hbm, ⟨5, _⟩ => ⟨S50000x32, .f32⟩
  | .hbm, ⟨6, _⟩ => ⟨S50000x32, .f32⟩
  | .hbm, ⟨7, _⟩ => ⟨S_, .i32⟩
  | .hbm, ⟨8, _⟩ => ⟨S16x128, .i32⟩
  | .hbm, ⟨9, _⟩ => ⟨S16x128, .i1⟩
  | .hbm, ⟨10, _⟩ => ⟨S_, .i32⟩
  | .hbm, ⟨11, _⟩ => ⟨S16x128, .i32⟩
  | .hbm, ⟨12, _⟩ => ⟨S16x128, .i32⟩
  | .hbm, ⟨13, _⟩ => ⟨S16x128, .i32⟩
  | .hbm, ⟨14, _⟩ => ⟨S16x128x1, .i32⟩
  | .hbm, ⟨15, _⟩ => ⟨S16x128x32, .f32⟩
  | .hbm, ⟨16, _⟩ => ⟨S16x128x32x1x1, .f32⟩
  | .hbm, ⟨17, _⟩ => ⟨S_, .i32⟩
  | .hbm, ⟨18, _⟩ => ⟨S16x128, .i32⟩
  | .hbm, ⟨19, _⟩ => ⟨S16x128, .i1⟩
  | .hbm, ⟨20, _⟩ => ⟨S_, .i32⟩
  | .hbm, ⟨21, _⟩ => ⟨S16x128, .i32⟩
  | .hbm, ⟨22, _⟩ => ⟨S16x128, .i32⟩
  | .hbm, ⟨23, _⟩ => ⟨S16x128, .i32⟩
  | .hbm, ⟨24, _⟩ => ⟨S16x128x1, .i32⟩
  | .hbm, ⟨25, _⟩ => ⟨S16x128x32, .f32⟩
  | .hbm, ⟨26, _⟩ => ⟨S16x128x32x1x1, .f32⟩
  | .hbm, ⟨27, _⟩ => ⟨S16x128x1x32x1x1x1, .f32⟩
  | .hbm, ⟨28, _⟩ => ⟨S16x128x1x32x1x1x1, .f32⟩
  | .hbm, ⟨29, _⟩ => ⟨S1x1x32x32x1x1x1, .f32⟩
  | .hbm, ⟨30, _⟩ => ⟨S1x1x32x32x1x1x1, .f32⟩
  | .hbm, ⟨31, _⟩ => ⟨S_, .f32⟩
  | .hbm, ⟨32, _⟩ => ⟨S16x128x1x32x1x1x1, .f32⟩
  | .hbm, ⟨33, _⟩ => ⟨S16x128x1x32x1x1x1, .f32⟩
  | .hbm, ⟨34, _⟩ => ⟨S16x128x1x32x1x1x1, .f32⟩
  | .hbm, ⟨35, _⟩ => ⟨S_, .f32⟩
  | .hbm, ⟨36, _⟩ => ⟨S1x1x32x32x1x1x1, .f32⟩
  | .hbm, ⟨37, _⟩ => ⟨S1x1x32x32x1x1x1, .f32⟩
  | .hbm, ⟨38, _⟩ => ⟨S1x1x32x32x1x1x1, .f32⟩
  | .hbm, ⟨39, _⟩ => ⟨S16x128x32x32x1x1x1, .f32⟩
  | .hbm, ⟨40, _⟩ => ⟨S16x128x32x32x1x1x1, .f32⟩
  | .hbm, ⟨41, _⟩ => ⟨S16x128x32x32x1x1x1, .f32⟩
  | .hbm, ⟨42, _⟩ => ⟨S16x128x32x32x1x1x1, .f32⟩
  | .hbm, ⟨43, _⟩ => ⟨S_, .f32⟩
  | .hbm, ⟨44, _⟩ => ⟨S16x128x32x32x1x1x1, .f32⟩
  | .hbm, ⟨45, _⟩ => ⟨S16x128x32x32x1x1x1, .f32⟩
  | .hbm, ⟨46, _⟩ => ⟨S16x128x32x32x1x1x1, .f32⟩
  | .hbm, ⟨47, _⟩ => ⟨S16x128x32x32x1x1x1, .f32⟩
  | .hbm, ⟨48, _⟩ => ⟨S16x128x32x32x1x1x1, .f32⟩
  | .hbm, ⟨49, _⟩ => ⟨S16x128x32x32x1x1x1, .f32⟩
  | .hbm, ⟨50, _⟩ => ⟨S16x128x32x32x1x1x1, .f32⟩
  | .hbm, ⟨51, _⟩ => ⟨S16x128x32x32x1x1x1, .f32⟩
  | .hbm, ⟨52, _⟩ => ⟨S_, .f32⟩
  | .hbm, ⟨53, _⟩ => ⟨S16x128x32x32x1x1x1, .f32⟩
  | .hbm, ⟨54, _⟩ => ⟨S16x128x32x32x1x1x1, .f32⟩
  | .hbm, ⟨55, _⟩ => ⟨S16x128x32x32x1x1x1, .f32⟩
  | .hbm, ⟨56, _⟩ => ⟨S16x128x32x32x1x1x1, .f32⟩
  | .hbm, ⟨57, _⟩ => ⟨S16x128x32x32x1x1x1, .f32⟩
  | .hbm, ⟨58, _⟩ => ⟨S16x128x32x32x1x1x1, .f32⟩
  | .hbm, ⟨59, _⟩ => ⟨S16x128x32x32x1x1x1, .f32⟩
  | .hbm, ⟨60, _⟩ => ⟨S16x128x32x32x1x1x1, .f32⟩
  | .hbm, ⟨61, _⟩ => ⟨S16x128x32x32x1x1x1, .f32⟩
  | .hbm, ⟨62, _⟩ => ⟨S16x128x32x32x1x1x1, .f32⟩
  | .hbm, ⟨63, _⟩ => ⟨S16x128x32x32x1x1x1, .f32⟩
  | .hbm, ⟨64, _⟩ => ⟨S16x128x32x32x1x1x1, .f32⟩
  | .hbm, ⟨65, _⟩ => ⟨S16x128x32x32x1x1x1, .f32⟩
  | .hbm, ⟨66, _⟩ => ⟨S_, .f32⟩
  | .hbm, ⟨67, _⟩ => ⟨S16x128x32x32x1x1x1, .f32⟩
  | .hbm, ⟨68, _⟩ => ⟨S16x128x32x32x1x1x1, .f32⟩
  | .hbm, ⟨69, _⟩ => ⟨S16x128x32x32x1x1x1, .f32⟩
  | .hbm, ⟨70, _⟩ => ⟨S_, .f32⟩
  | .hbm, ⟨71, _⟩ => ⟨S16x128x32x32x1x1, .f32⟩
  | .hbm, ⟨72, _⟩ => ⟨S16x127x32x32x1x1x1, .f32⟩
  | .hbm, ⟨73, _⟩ => ⟨S16x127x32x32x1x1x1x1x1, .f32⟩
  | .hbm, ⟨74, _⟩ => ⟨S16x127x32x32x1x1x1, .f32⟩
  | .hbm, ⟨75, _⟩ => ⟨S16x127x32x32x1x1x1x1x1, .f32⟩
  | .hbm, ⟨76, _⟩ => ⟨S1x1x1x32x32x1x1x1x1, .f32⟩
  | .hbm, ⟨77, _⟩ => ⟨S1x1x1x32x32x1x1x1x1, .f32⟩
  | .hbm, ⟨78, _⟩ => ⟨S_, .f32⟩
  | .hbm, ⟨79, _⟩ => ⟨S16x127x32x32x1x1x1x1x1, .f32⟩
  | .hbm, ⟨80, _⟩ => ⟨S16x127x32x32x1x1x1x1x1, .f32⟩
  | .hbm, ⟨81, _⟩ => ⟨S16x127x32x32x1x1x1x1x1, .f32⟩
  | .hbm, ⟨82, _⟩ => ⟨S_, .f32⟩
  | .hbm, ⟨83, _⟩ => ⟨S1x1x1x32x32x1x1x1x1, .f32⟩
  | .hbm, ⟨84, _⟩ => ⟨S1x1x1x32x32x1x1x1x1, .f32⟩
  | .hbm, ⟨85, _⟩ => ⟨S1x1x1x32x32x1x1x1x1, .f32⟩
  | .hbm, ⟨86, _⟩ => ⟨S16x127x32x32x32x1x1x1x1, .f32⟩
  | .hbm, ⟨87, _⟩ => ⟨S16x127x32x32x32x1x1x1x1, .f32⟩
  | .hbm, ⟨88, _⟩ => ⟨S16x127x32x32x32x1x1x1x1, .f32⟩
  | .hbm, ⟨89, _⟩ => ⟨S16x127x32x32x32x1x1x1x1, .f32⟩
  | .hbm, ⟨90, _⟩ => ⟨S_, .f32⟩
  | .hbm, ⟨91, _⟩ => ⟨S16x127x32x32x32x1x1x1x1, .f32⟩
  | .hbm, ⟨92, _⟩ => ⟨S16x127x32x32x32x1x1x1x1, .f32⟩
  | .hbm, ⟨93, _⟩ => ⟨S16x127x32x32x32x1x1x1x1, .f32⟩
  | .hbm, ⟨94, _⟩ => ⟨S16x127x32x32x32x1x1x1x1, .f32⟩
  | .hbm, ⟨95, _⟩ => ⟨S16x127x32x32x32x1x1x1x1, .f32⟩
  | .hbm, ⟨96, _⟩ => ⟨S16x127x32x32x32x1x1x1x1, .f32⟩
  | .hbm, ⟨97, _⟩ => ⟨S16x127x32x32x32x1x1x1x1, .f32⟩
  | .hbm, ⟨98, _⟩ => ⟨S16x127x32x32x32x1x1x1x1, .f32⟩
  | .hbm, ⟨99, _⟩ => ⟨S_, .f32⟩
  | .hbm, ⟨100, _⟩ => ⟨S16x127x32x32x32x1x1x1x1, .f32⟩
  | .hbm, ⟨101, _⟩ => ⟨S16x127x32x32x32x1x1x1x1, .f32⟩
  | .hbm, ⟨102, _⟩ => ⟨S16x127x32x32x32x1x1x1x1, .f32⟩
  | .hbm, ⟨103, _⟩ => ⟨S16x127x32x32x32x1x1x1x1, .f32⟩
  | .hbm, ⟨104, _⟩ => ⟨S16x127x32x32x32x1x1x1x1, .f32⟩
  | .hbm, ⟨105, _⟩ => ⟨S16x127x32x32x32x1x1x1x1, .f32⟩
  | .hbm, ⟨106, _⟩ => ⟨S16x127x32x32x32x1x1x1x1, .f32⟩
  | .hbm, ⟨107, _⟩ => ⟨S16x127x32x32x32x1x1x1x1, .f32⟩
  | .hbm, ⟨108, _⟩ => ⟨S16x127x32x32x32x1x1x1x1, .f32⟩
  | .hbm, ⟨109, _⟩ => ⟨S16x127x32x32x32x1x1x1x1, .f32⟩
  | .hbm, ⟨110, _⟩ => ⟨S16x127x32x32x32x1x1x1x1, .f32⟩
  | .hbm, ⟨111, _⟩ => ⟨S16x127x32x32x32x1x1x1x1, .f32⟩
  | .hbm, ⟨112, _⟩ => ⟨S16x127x32x32x32x1x1x1x1, .f32⟩
  | .hbm, ⟨113, _⟩ => ⟨S_, .f32⟩
  | .hbm, ⟨114, _⟩ => ⟨S16x127x32x32x32x1x1x1x1, .f32⟩
  | .hbm, ⟨115, _⟩ => ⟨S16x127x32x32x32x1x1x1x1, .f32⟩
  | .hbm, ⟨116, _⟩ => ⟨S16x127x32x32x32x1x1x1x1, .f32⟩
  | .hbm, ⟨117, _⟩ => ⟨S_, .f32⟩
  | .hbm, ⟨118, _⟩ => ⟨S16x127x32x32x32x1x1x1, .f32⟩
  | .hbm, ⟨119, _⟩ => ⟨S1x1x32x32x1x1, .f32⟩
  | .hbm, ⟨120, _⟩ => ⟨S16x128x32x32x1x1, .f32⟩
  | .hbm, ⟨121, _⟩ => ⟨S1x1x32x32x1x1, .f32⟩
  | .hbm, ⟨122, _⟩ => ⟨S16x128x32x32x1x1, .f32⟩
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_13 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  shapeCasts_S16x128x32_S16x128x32x1x1 : S16x128x32.ShapeCasts S16x128x32x1x1
  bcast_S16x128x32x1x1_S16x128x1x32x1x1x1_0_1_3_5_6 : S16x128x32x1x1.BroadcastsInDim S16x128x1x32x1x1x1 (![0, 1, 3, 5, 6] : Fin 5 → Fin S16x128x1x32x1x1x1.rank)
  bcast_S32x32x1x1_S1x1x32x32x1x1x1_2_3_4_6 : S32x32x1x1.BroadcastsInDim S1x1x32x32x1x1x1 (![2, 3, 4, 6] : Fin 4 → Fin S1x1x32x32x1x1x1.rank)
  bcast_S_S16x128x1x32x1x1x1 : S_.BroadcastsInDim S16x128x1x32x1x1x1 (![] : Fin 0 → Fin S16x128x1x32x1x1x1.rank)
  bcast_S_S1x1x32x32x1x1x1 : S_.BroadcastsInDim S1x1x32x32x1x1x1 (![] : Fin 0 → Fin S1x1x32x32x1x1x1.rank)
  bcast_S16x128x1x32x1x1x1_S16x128x32x32x1x1x1_0_1_2_3_4_5_6 : S16x128x1x32x1x1x1.BroadcastsInDim S16x128x32x32x1x1x1 (![0, 1, 2, 3, 4, 5, 6] : Fin 7 → Fin S16x128x32x32x1x1x1.rank)
  bcast_S1x1x32x32x1x1x1_S16x128x32x32x1x1x1_0_1_2_3_4_5_6 : S1x1x32x32x1x1x1.BroadcastsInDim S16x128x32x32x1x1x1 (![0, 1, 2, 3, 4, 5, 6] : Fin 7 → Fin S16x128x32x32x1x1x1.rank)
  bcast_S_S16x128x32x32x1x1x1 : S_.BroadcastsInDim S16x128x32x32x1x1x1 (![] : Fin 0 → Fin S16x128x32x32x1x1x1.rank)
  reducesTo_S16x128x32x32x1x1x1_S16x128x32x32x1x1_d6 : S16x128x32x32x1x1x1.ReducesTo [6] S16x128x32x32x1x1
  h_S_ : 0 < S_.numel
  slices_S16x128x32x32x1x1x1_S16x127x32x32x1x1x1_0_0_0_0_0_0_0 : S16x128x32x32x1x1x1.Slices ![0, 0, 0, 0, 0, 0, 0] S16x127x32x32x1x1x1
  bcast_S16x127x32x32x1x1x1_S16x127x32x32x1x1x1x1x1_0_1_2_3_5_6_8 : S16x127x32x32x1x1x1.BroadcastsInDim S16x127x32x32x1x1x1x1x1 (![0, 1, 2, 3, 5, 6, 8] : Fin 7 → Fin S16x127x32x32x1x1x1x1x1.rank)
  bcast_S32x32x1x1_S1x1x1x32x32x1x1x1x1_3_4_7_8 : S32x32x1x1.BroadcastsInDim S1x1x1x32x32x1x1x1x1 (![3, 4, 7, 8] : Fin 4 → Fin S1x1x1x32x32x1x1x1x1.rank)
  bcast_S_S16x127x32x32x1x1x1x1x1 : S_.BroadcastsInDim S16x127x32x32x1x1x1x1x1 (![] : Fin 0 → Fin S16x127x32x32x1x1x1x1x1.rank)
  bcast_S_S1x1x1x32x32x1x1x1x1 : S_.BroadcastsInDim S1x1x1x32x32x1x1x1x1 (![] : Fin 0 → Fin S1x1x1x32x32x1x1x1x1.rank)
  bcast_S16x127x32x32x1x1x1x1x1_S16x127x32x32x32x1x1x1x1_0_1_2_3_4_5_6_7_8 : S16x127x32x32x1x1x1x1x1.BroadcastsInDim S16x127x32x32x32x1x1x1x1 (![0, 1, 2, 3, 4, 5, 6, 7, 8] : Fin 9 → Fin S16x127x32x32x32x1x1x1x1.rank)
  bcast_S1x1x1x32x32x1x1x1x1_S16x127x32x32x32x1x1x1x1_0_1_2_3_4_5_6_7_8 : S1x1x1x32x32x1x1x1x1.BroadcastsInDim S16x127x32x32x32x1x1x1x1 (![0, 1, 2, 3, 4, 5, 6, 7, 8] : Fin 9 → Fin S16x127x32x32x32x1x1x1x1.rank)
  bcast_S_S16x127x32x32x32x1x1x1x1 : S_.BroadcastsInDim S16x127x32x32x32x1x1x1x1 (![] : Fin 0 → Fin S16x127x32x32x32x1x1x1x1.rank)
  reducesTo_S16x127x32x32x32x1x1x1x1_S16x127x32x32x32x1x1x1_d8 : S16x127x32x32x32x1x1x1x1.ReducesTo [8] S16x127x32x32x32x1x1x1
  bcast_S32x32x1x1_S1x1x32x32x1x1_2_3_4_5 : S32x32x1x1.BroadcastsInDim S1x1x32x32x1x1 (![2, 3, 4, 5] : Fin 4 → Fin S1x1x32x32x1x1.rank)
  bcast_S1x1x32x32x1x1_S16x128x32x32x1x1_0_1_2_3_4_5 : S1x1x32x32x1x1.BroadcastsInDim S16x128x32x32x1x1 (![0, 1, 2, 3, 4, 5] : Fin 6 → Fin S16x128x32x32x1x1.rank)
  gather_S50000x32_S16x128x1_S16x128x32_2_0_n_n_0_2_132_wf : GatherDims.WF S50000x32 S16x128x1 S16x128x32 [2] [0] [] [0] [] 2 ![1, 32]

variable [Facts₀]

def gather_S50000x32_S16x128x1_S16x128x32_2_0_n_n_0_2_132 : GatherDims S50000x32 S16x128x1 S16x128x32 where
  offsetDims := [2]
  collapsedSliceDims := [0]
  operandBatchingDims := []
  startIndicesBatchingDims := []
  startIndexMap := [0]
  indexVectorDim := 2
  sliceSizes := ![1, 32]
  wf := gather_S50000x32_S16x128x1_S16x128x32_2_0_n_n_0_2_132_wf

class Facts : Prop extends Facts₀ where

variable [Facts]
-- ==== Proof.KernelRun.lean ====
/-
  The idealized kernel's run, with every buffer of the TensorCore named.

  @main is five segments: the host operations that gather the two emission tables' rows and drop the unit axes of the
  four transition arrays; the first pallas_call (state × child transition); the slice and the flattening of its two
  results; the second pallas_call (× parent transition); the final reshapes and broadcasts. The boundary contents
  `W0 … W5` of the generated frame fold the launch memory through these five segments, and the frame's launch proves that
  every weakly fair execution ends with every unscoped buffer at `W5`. The generated statement keeps, of that, only the
  seven argument arrays; here the same launch is read at ALL unscoped buffers, so that the five result arrays are
  available as `W5` at their references.
-/
import proofs.«156737_j65566970741220_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every unscoped buffer of
    every core holds the last boundary's contents `W5`: the launch memory folded through the three stretches of host
    operations and the two pipelines' write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- A reference of the TensorCore that is not scoped is one of the unscoped references the run reads. -/
theorem mem_unscoped (b : Ref sig .tc) (h : ¬ (Proc.devRef .tc b : DevRef τ sig).isScoped) : Proc.devRef .tc b ∈ Pipeline.ucRefs τ sig :=
  mem_uc b h

end Cert.KernelIdeal.Whole

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.Spec.lean ====
/-
  The product of two Gaussians in the log-standard-deviation parameterisation, on the extended reals, and the three
  arrays the program computes with it.

  A Gaussian is given by its mean `μ` and by `v`, the logarithm of its standard deviation, so that its variance is
  `exp (2·v)`. For two of them write `s = exp (2·v₁) + exp (2·v₂)`, the sum of the variances. Their product is, up to the
  factor `exp scale`, the Gaussian with
    mean              (μ₁·exp (2·v₂) + μ₂·exp (2·v₁)) / s,
    log-deviation     (v₁ + v₂) − ½·log s,
    scale             −½·((log 2π + log s) + (μ₁ − μ₂)·(μ₁ − μ₂) / s).
  Every operation is the extended reals' own (no rounding); the four float literals are kept as the words the two
  programs print, the same words on both sides, so none of them is ever evaluated.

  The arrays. With emission parameters `sμ, sv` over (batch b, position l, label k) and child-transition parameters
  `cμ, cv` over (label a, label k), the first product is taken at every (b, l, a, k): the emission at (b, l, k) times the
  child transition at (a, k). With parent-transition parameters `pμ, pv` over (label k, label c), the second product's
  scale is taken at every (r, k, c): a first product's mean and log-deviation at row `r` and label `k` times the parent
  transition at (k, c).
-/
import Idealize.ShloMosaic.PureOps.Ideal
import Idealize.ShloMosaic.Lib.ValueIdx

noncomputable section

namespace Cert.GaussProduct

open Idealize.ShloMosaic Idealize.ShloMosaic.ValueIdx

/-- The literal `2`. -/
abbrev two : Ideal .f32 := Ideal.ofBits .f32 0x40000000#32
/-- The literal `½`. -/
abbrev half : Ideal .f32 := Ideal.ofBits .f32 0x3F000000#32
/-- The literal `−½`. -/
abbrev negHalf : Ideal .f32 := Ideal.ofBits .f32 0xBF000000#32
/-- The single-precision literal for `log 2π`. -/
abbrev log2pi : Ideal .f32 := Ideal.ofBits .f32 0x3FEB3F8E#32

/-- The sum of the two variances. -/
def varSum (v₁ v₂ : Ideal .f32) : Ideal .f32 := Ideal.exp (two * v₁) + Ideal.exp (two * v₂)

/-- The product's mean: each mean weighted by the OTHER factor's variance, over the sum of the variances. -/
def mean (μ₁ v₁ μ₂ v₂ : Ideal .f32) : Ideal .f32 :=
  Ideal.div (μ₁ * Ideal.exp (two * v₂) + μ₂ * Ideal.exp (two * v₁)) (varSum v₁ v₂)

/-- The product's log-deviation. -/
def logDev (v₁ v₂ : Ideal .f32) : Ideal .f32 := (v₁ + v₂) - half * Ideal.log (varSum v₁ v₂)

/-- The logarithm of the product's normalising factor. -/
def scale (μ₁ v₁ μ₂ v₂ : Ideal .f32) : Ideal .f32 :=
  negHalf * ((log2pi + Ideal.log (varSum v₁ v₂)) + Ideal.div ((μ₁ - μ₂) * (μ₁ - μ₂)) (varSum v₁ v₂))

/-- The first product's means over (b, l, a, k): emission (b, l, k) times child transition (a, k). -/
def childMean (sμ sv : (⟨3, ![16, 128, 32]⟩ : Shape).Idx → Ideal .f32) (cμ cv : (⟨2, ![32, 32]⟩ : Shape).Idx → Ideal .f32) :
    (⟨4, ![16, 128, 32, 32]⟩ : Shape).Idx → Ideal .f32 :=
  fun i => mean (sμ (ix3 (i 0) (i 1) (i 3))) (sv (ix3 (i 0) (i 1) (i 3))) (cμ (ix2 (i 2) (i 3))) (cv (ix2 (i 2) (i 3)))

/-- The first product's log-deviations over (b, l, a, k). -/
def childLogDev (sv : (⟨3, ![16, 128, 32]⟩ : Shape).Idx → Ideal .f32) (cv : (⟨2, ![32, 32]⟩ : Shape).Idx → Ideal .f32) :
    (⟨4, ![16, 128, 32, 32]⟩ : Shape).Idx → Ideal .f32 :=
  fun i => logDev (sv (ix3 (i 0) (i 1) (i 3))) (cv (ix2 (i 2) (i 3)))

/-- The second product's scales over (r, k, c): row r's first product at label k times parent transition (k, c). -/
def parentScale (aμ av : (⟨2, ![65024, 32]⟩ : Shape).Idx → Ideal .f32) (pμ pv : (⟨2, ![32, 32]⟩ : Shape).Idx → Ideal .f32) :
    (⟨3, ![65024, 32, 32]⟩ : Shape).Idx → Ideal .f32 :=
  fun i => scale (aμ (ix2 (i 0) (i 1))) (av (ix2 (i 0) (i 1))) (pμ (ix2 (i 1) (i 2))) (pv (ix2 (i 1) (i 2)))

end Cert.GaussProduct

end
-- ==== Proof.Payload0.lean ====
/-
  The first pallas_call's arithmetic at one index of its block.

  At grid point `b` the body holds the emission means and log-deviations of batch row `b` (blocks `[1, 128, 32]` over
  (·, l, k)) and the whole child-transition arrays (`[32, 32]` over (a, k)). It drops the emission blocks' unit axis,
  repeats each emission matrix along a new middle axis `a` and each transition matrix along a new leading axis `l`, and
  computes, in the cube (l, a, k), the product's mean and log-deviation, which it stores as blocks `[1, 128, 32, 32]`.
  So at (·, l, a, k) the stored values are the Gaussian product of the emission at (·, l, k) with the transition at
  (a, k): the pointwise operations are read through, the casts and broadcasts by the unit-axis lemmas.
-/
import proofs.«156737_j65566970741220_2_alg».proof.Proof.Gen.KernelIdeal.Skeleton
import proofs.«156737_j65566970741220_2_alg».proof.Proof.LibUnitAxes
import proofs.«156737_j65566970741220_2_alg».proof.Proof.Spec

noncomputable section

namespace Cert.KernelIdeal.Body

open Cert.KernelIdeal Cert.KernelIdeal.Gen Idealize.ShloMosaic Idealize.ShloMosaic.ValueIdx Idealize.ShloMosaic.UnitAxes
open Cert.GaussProduct

/-- An emission block repeated along the label axis `a`: at (l, a, k) it is the block at (0, l, k). -/
theorem emission_at {α : Type} (x : S1x128x32.Idx → α) (l : Fin 128) (a k : Fin 32) :
    broadcastTo S128x32x32 (shapeCast S128x1x32 (shapeCast S128x32 x shapeCasts_S1x128x32_S128x32) shapeCasts_S128x32_S128x1x32)
        broadcasts_S128x1x32_S128x32x32 (ix3 l a k) = x (ix3 (0 : Fin 1) l k) :=
  (along_middle _ _ _ l a k).trans (shapeCast_1ab_ab_apply x _ l k)

/-- A transition matrix repeated along the position axis `l`: at (l, a, k) it is the matrix at (a, k). -/
theorem transition_at {α : Type} (x : S32x32.Idx → α) (l : Fin 128) (a k : Fin 32) :
    broadcastTo S128x32x32 (shapeCast S1x32x32 (shapeCast S32x32 x shapeCasts_S32x32_S32x32) shapeCasts_S32x32_S1x32x32)
        broadcasts_S1x32x32_S128x32x32 (ix3 l a k) = x (ix2 a k) :=
  (along_leading _ _ _ l a k).trans (congrFun (shapeCast_self x _) _)

/-- The emission's variance `exp (2·v)`, repeated along `a`. -/
theorem emissionVar_at (x1 : Vec Ideal S1x128x32 .f32) (l : Fin 128) (a k : Fin 32) :
    broadcastTo S128x32x32 (k0_pay4 (F := Ideal) x1) broadcasts_S128x1x32_S128x32x32 (ix3 l a k)
      = Ideal.exp (two * x1 (ix3 (0 : Fin 1) l k)) := by
  unfold k0_pay4 k0_pay2
  refine (along_middle _ _ _ l a k).trans ?_
  show Ideal.exp (two * shapeCast S128x32 x1 shapeCasts_S1x128x32_S128x32 (ix2 l k)) = _
  rw [shapeCast_1ab_ab_apply]

/-- The transition's variance `exp (2·v)`, repeated along `l`. -/
theorem transitionVar_at (x3 : Vec Ideal S32x32 .f32) (l : Fin 128) (a k : Fin 32) :
    broadcastTo S128x32x32 (k0_pay5 (F := Ideal) x3) broadcasts_S1x32x32_S128x32x32 (ix3 l a k)
      = Ideal.exp (two * x3 (ix2 a k)) := by
  unfold k0_pay5 k0_pay3
  refine (along_leading _ _ _ l a k).trans ?_
  show Ideal.exp (two * shapeCast S32x32 x3 shapeCasts_S32x32_S32x32 (ix2 a k)) = _
  rw [shapeCast_self]

/-- The sum of the two variances in the cube. -/
theorem varSum_at (x1 : Vec Ideal S1x128x32 .f32) (x3 : Vec Ideal S32x32 .f32) (l : Fin 128) (a k : Fin 32) :
    k0_pay6 (F := Ideal) x1 x3 (ix3 l a k) = varSum (x1 (ix3 (0 : Fin 1) l k)) (x3 (ix2 a k)) := by
  unfold k0_pay6
  show broadcastTo S128x32x32 (k0_pay4 (F := Ideal) x1) broadcasts_S128x1x32_S128x32x32 (ix3 l a k)
      + broadcastTo S128x32x32 (k0_pay5 (F := Ideal) x3) broadcasts_S1x32x32_S128x32x32 (ix3 l a k) = _
  rw [emissionVar_at, transitionVar_at]
  rfl

/-- THE MEAN the body stores at (·, l, a, k). -/
theorem mean_at (x0 x1 : Vec Ideal S1x128x32 .f32) (x2 x3 : Vec Ideal S32x32 .f32) (u : Fin 1) (l : Fin 128) (a k : Fin 32) :
    k0_pay8 (F := Ideal) x0 x1 x2 x3 (ix4 u l a k)
      = mean (x0 (ix3 (0 : Fin 1) l k)) (x1 (ix3 (0 : Fin 1) l k)) (x2 (ix2 a k)) (x3 (ix2 a k)) := by
  unfold k0_pay8
  refine (shapeCast_abc_1abc_apply _ _ u l a k).trans ?_
  show Ideal.div
      (broadcastTo S128x32x32 (shapeCast S128x1x32 (shapeCast S128x32 x0 shapeCasts_S1x128x32_S128x32) shapeCasts_S128x32_S128x1x32)
            broadcasts_S128x1x32_S128x32x32 (ix3 l a k)
          * broadcastTo S128x32x32 (k0_pay5 (F := Ideal) x3) broadcasts_S1x32x32_S128x32x32 (ix3 l a k)
        + broadcastTo S128x32x32 (shapeCast S1x32x32 (shapeCast S32x32 x2 shapeCasts_S32x32_S32x32) shapeCasts_S32x32_S1x32x32)
            broadcasts_S1x32x32_S128x32x32 (ix3 l a k)
          * broadcastTo S128x32x32 (k0_pay4 (F := Ideal) x1) broadcasts_S128x1x32_S128x32x32 (ix3 l a k))
      (k0_pay6 (F := Ideal) x1 x3 (ix3 l a k)) = _
  rw [emission_at, transition_at, emissionVar_at, transitionVar_at, varSum_at]
  rfl

/-- THE LOG-DEVIATION the body stores at (·, l, a, k). -/
theorem logDev_at (x1 : Vec Ideal S1x128x32 .f32) (x3 : Vec Ideal S32x32 .f32) (u : Fin 1) (l : Fin 128) (a k : Fin 32) :
    k0_pay1 (F := Ideal) (k0_pay7 x1 x3) (ix4 u l a k) = logDev (x1 (ix3 (0 : Fin 1) l k)) (x3 (ix2 a k)) := by
  unfold k0_pay1 k0_pay7 k0_pay2 k0_pay3
  refine (shapeCast_abc_1abc_apply _ _ u l a k).trans ?_
  show (broadcastTo S128x32x32 (shapeCast S128x1x32 (shapeCast S128x32 x1 shapeCasts_S1x128x32_S128x32) shapeCasts_S128x32_S128x1x32)
            broadcasts_S128x1x32_S128x32x32 (ix3 l a k)
        + broadcastTo S128x32x32 (shapeCast S1x32x32 (shapeCast S32x32 x3 shapeCasts_S32x32_S32x32) shapeCasts_S32x32_S1x32x32)
            broadcasts_S1x32x32_S128x32x32 (ix3 l a k))
      - half * Ideal.log (k0_pay6 (F := Ideal) x1 x3 (ix3 l a k)) = _
  rw [emission_at, transition_at, varSum_at]
  rfl

end Cert.KernelIdeal.Body

end
-- ==== Proof.Region0.lean ====
/-
  What the first pallas_call leaves in its two result arrays.

  The grid has one point per batch row `b`. Point `b` reads block `b` of the two emission arrays — rows (b, ·, ·) of
  `[16, 128, 32]` — and the whole child-transition arrays, and writes block `b` of each result — rows (b, ·, ·, ·) of
  `[16, 128, 32, 32]`. A block's element with inner coordinates `y` sits in its array at (b, y₁, y₂, …), so what
  point `b` writes is block `b` of ONE whole-array function of the four arrays as the region finds them: the Gaussian
  product of the emission at (b, l, k) with the transition at (a, k). The sixteen blocks tile the results, so after
  the run each result array IS that function.
-/
import proofs.«156737_j65566970741220_2_alg».proof.Proof.Gen.KernelIdeal.Frame
import proofs.«156737_j65566970741220_2_alg».proof.Proof.Payload0

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GaussProduct Cert.KernelIdeal.Body

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps, decided over the sixteen points: the emission windows and the result windows sit at block
    (b, 0, …) at point `b`, the transition windows at block (0, 0). -/
theorem blocks0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The batch row a grid point works on. -/
abbrev rowOf (t : Fin cfg0.N) : Fin 16 := Fin.cast N_0 t

/-! ## Where a block's element sits in its array -/

theorem embMu (t : Fin cfg0.N) (l : Fin 128) (k : Fin 32) :
    ((cfg0.win 0).blk t).view.emb (ix3 (0 : Fin 1) l k) = ix3 (rowOf t) l k := by
  obtain ⟨e0, e1, e2, -⟩ := blocks0 t
  funext ax; apply Fin.ext
  match ax with
  | ⟨0, _⟩ => show win0_0.index t (0 : Fin 3) * 1 + 1 * 0 = t.val; omega
  | ⟨1, _⟩ => show win0_0.index t (1 : Fin 3) * 128 + 1 * l.val = l.val; omega
  | ⟨2, _⟩ => show win0_0.index t (2 : Fin 3) * 32 + 1 * k.val = k.val; omega

theorem embVar (t : Fin cfg0.N) (l : Fin 128) (k : Fin 32) :
    ((cfg0.win 1).blk t).view.emb (ix3 (0 : Fin 1) l k) = ix3 (rowOf t) l k := by
  obtain ⟨-, -, -, e0, e1, e2, -⟩ := blocks0 t
  funext ax; apply Fin.ext
  match ax with
  | ⟨0, _⟩ => show win0_1.index t (0 : Fin 3) * 1 + 1 * 0 = t.val; omega
  | ⟨1, _⟩ => show win0_1.index t (1 : Fin 3) * 128 + 1 * l.val = l.val; omega
  | ⟨2, _⟩ => show win0_1.index t (2 : Fin 3) * 32 + 1 * k.val = k.val; omega

theorem embChildMu (t : Fin cfg0.N) (a k : Fin 32) : ((cfg0.win 2).blk t).view.emb (ix2 a k) = ix2 a k := by
  obtain ⟨-, -, -, -, -, -, e0, e1, -⟩ := blocks0 t
  funext ax; apply Fin.ext
  match ax with
  | ⟨0, _⟩ => show win0_2.index t (0 : Fin 2) * 32 + 1 * a.val = a.val; omega
  | ⟨1, _⟩ => show win0_2.index t (1 : Fin 2) * 32 + 1 * k.val = k.val; omega

theorem embChildVar (t : Fin cfg0.N) (a k : Fin 32) : ((cfg0.win 3).blk t).view.emb (ix2 a k) = ix2 a k := by
  obtain ⟨-, -, -, -, -, -, -, -, e0, e1, -⟩ := blocks0 t
  funext ax; apply Fin.ext
  match ax with
  | ⟨0, _⟩ => show win0_3.index t (0 : Fin 2) * 32 + 1 * a.val = a.val; omega
  | ⟨1, _⟩ => show win0_3.index t (1 : Fin 2) * 32 + 1 * k.val = k.val; omega

theorem embMean (t : Fin cfg0.N) (u : Fin 1) (l : Fin 128) (a k : Fin 32) :
    ((cfg0.win 4).blk t).view.emb (ix4 u l a k) = ix4 (rowOf t) l a k := by
  obtain ⟨-, -, -, -, -, -, -, -, -, -, e0, e1, e2, e3, -⟩ := blocks0 t
  have hu : u.val = 0 := by omega
  funext ax; apply Fin.ext
  match ax with
  | ⟨0, _⟩ => show win0_4.index t (0 : Fin 4) * 1 + 1 * u.val = t.val; omega
  | ⟨1, _⟩ => show win0_4.index t (1 : Fin 4) * 128 + 1 * l.val = l.val; omega
  | ⟨2, _⟩ => show win0_4.index t (2 : Fin 4) * 32 + 1 * a.val = a.val; omega
  | ⟨3, _⟩ => show win0_4.index t (3 : Fin 4) * 32 + 1 * k.val = k.val; omega

theorem embLogDev (t : Fin cfg0.N) (u : Fin 1) (l : Fin 128) (a k : Fin 32) :
    ((cfg0.win 5).blk t).view.emb (ix4 u l a k) = ix4 (rowOf t) l a k := by
  obtain ⟨-, -, -, -, -, -, -, -, -, -, -, -, -, -, e0, e1, e2, e3⟩ := blocks0 t
  have hu : u.val = 0 := by omega
  funext ax; apply Fin.ext
  match ax with
  | ⟨0, _⟩ => show win0_5.index t (0 : Fin 4) * 1 + 1 * u.val = t.val; omega
  | ⟨1, _⟩ => show win0_5.index t (1 : Fin 4) * 128 + 1 * l.val = l.val; omega
  | ⟨2, _⟩ => show win0_5.index t (2 : Fin 4) * 32 + 1 * a.val = a.val; omega
  | ⟨3, _⟩ => show win0_5.index t (3 : Fin 4) * 32 + 1 * k.val = k.val; omega

/-! ## What a point writes back -/

/-- Point `t` writes back, into the means' array, block `t` of the product's mean taken over the whole arrays. -/
theorem flushedMean (c : Dev nD) (t : Fin cfg0.N) :
    (dat0 V c).flushed 4 t = ((cfg0.win 4).blk t).view.read (Elt Ideal)
      (childMean (V c main_v10) (V c main_v17) (V c main_v2) (V c main_v3)) := by
  show (cfg0.win 4).cut (grid0.coords t) ((dat0 V c).after 4 t) = _
  rw [after0_4]
  unfold out0_4
  rw [View.canon_unit_zero zero4]
  simp only [View.ld_unit_zero (S := S1x128x32) zero3, View.ld_unit_zero (S := S32x32) zero2]
  funext j
  obtain ⟨u, l, a, k, rfl⟩ : ∃ (u : Fin 1) (l : Fin 128) (a k : Fin 32), j = ix4 u l a k := ⟨j 0, j 1, j 2, j 3, eq_ix4 j⟩
  show k0_pay8 (F := Ideal) (iblk0 V c 0 t) (iblk0 V c 1 t) (iblk0 V c 2 t) (iblk0 V c 3 t) (ix4 u l a k)
    = childMean (V c main_v10) (V c main_v17) (V c main_v2) (V c main_v3) (((cfg0.win 4).blk t).view.emb (ix4 u l a k))
  rw [embMean]
  refine (mean_at _ _ _ _ u l a k).trans ?_
  show mean (V c main_v10 (((cfg0.win 0).blk t).view.emb (ix3 (0 : Fin 1) l k)))
      (V c main_v17 (((cfg0.win 1).blk t).view.emb (ix3 (0 : Fin 1) l k)))
      (V c main_v2 (((cfg0.win 2).blk t).view.emb (ix2 a k))) (V c main_v3 (((cfg0.win 3).blk t).view.emb (ix2 a k)))
    = mean (V c main_v10 (ix3 (rowOf t) l k)) (V c main_v17 (ix3 (rowOf t) l k)) (V c main_v2 (ix2 a k)) (V c main_v3 (ix2 a k))
  rw [embMu, embVar, embChildMu, embChildVar]

/-- Point `t` writes back, into the log-deviations' array, block `t` of the product's log-deviation. -/
theorem flushedLogDev (c : Dev nD) (t : Fin cfg0.N) :
    (dat0 V c).flushed 5 t = ((cfg0.win 5).blk t).view.read (Elt Ideal) (childLogDev (V c main_v17) (V c main_v3)) := by
  show (cfg0.win 5).cut (grid0.coords t) ((dat0 V c).after 5 t) = _
  rw [after0_5]
  unfold out0_5
  rw [View.canon_unit_zero zero4]
  simp only [View.ld_unit_zero (S := S1x128x32) zero3, View.ld_unit_zero (S := S32x32) zero2]
  funext j
  obtain ⟨u, l, a, k, rfl⟩ : ∃ (u : Fin 1) (l : Fin 128) (a k : Fin 32), j = ix4 u l a k := ⟨j 0, j 1, j 2, j 3, eq_ix4 j⟩
  show k0_pay1 (F := Ideal) (k0_pay7 (iblk0 V c 1 t) (iblk0 V c 3 t)) (ix4 u l a k)
    = childLogDev (V c main_v17) (V c main_v3) (((cfg0.win 5).blk t).view.emb (ix4 u l a k))
  rw [embLogDev]
  refine (logDev_at _ _ u l a k).trans ?_
  show logDev (V c main_v17 (((cfg0.win 1).blk t).view.emb (ix3 (0 : Fin 1) l k)))
      (V c main_v3 (((cfg0.win 3).blk t).view.emb (ix2 a k)))
    = logDev (V c main_v17 (ix3 (rowOf t) l k)) (V c main_v3 (ix2 a k))
  rw [embVar, embChildVar]

/-! ## The sixteen blocks tile the results -/

/-- An index of the means' array is in point `t`'s block iff each coordinate is in the block's range on its axis. -/
theorem mem_blkMean (t : Fin cfg0.N) (i : S16x128x32x32.Idx) :
    i ∈ ((cfg0.win 4).blk t).view.set ↔ ∀ a : Fin 4, win0_4.index t a * S1x128x32x32.size a ≤ (i a).val
      ∧ (i a).val < win0_4.index t a * S1x128x32x32.size a + S1x128x32x32.size a := by
  show i ∈ ((View.whole main_v18_0).slice (win0_4.rect t)).set ↔ _
  rw [View.set_slice_whole, Rect.mem_set_unit]
  exact Iff.rfl

theorem mem_blkLogDev (t : Fin cfg0.N) (i : S16x128x32x32.Idx) :
    i ∈ ((cfg0.win 5).blk t).view.set ↔ ∀ a : Fin 4, win0_5.index t a * S1x128x32x32.size a ≤ (i a).val
      ∧ (i a).val < win0_5.index t a * S1x128x32x32.size a + S1x128x32x32.size a := by
  show i ∈ ((View.whole main_v18_1).slice (win0_5.rect t)).set ↔ _
  rw [View.set_slice_whole, Rect.mem_set_unit]
  exact Iff.rfl

/-- The point that works on an index's batch row. -/
def pointOf (i : S16x128x32x32.Idx) : Fin cfg0.N :=
  ⟨(i 0).val, by have h : (i 0).val < 16 := (i 0).isLt; have := N_0; show (i 0).val < grid0.N; omega⟩

/-- Every index (b, l, a, k) of the means' array is in the block of the point that works on batch row `b`. -/
theorem coverMean (i : S16x128x32x32.Idx) :
    ∃ t : Fin cfg0.N, (cfg0.win 4).flush t = true ∧ i ∈ ((cfg0.win 4).blk t).view.set := by
  refine ⟨pointOf i, flush0_4 _, ?_⟩
  rw [mem_blkMean]
  obtain ⟨-, -, -, -, -, -, -, -, -, -, e0, e1, e2, e3, -⟩ := blocks0 (pointOf i)
  have ht : (pointOf i).val = (i 0).val := rfl
  have h1 : (i 1).val < 128 := (i 1).isLt
  have h2 : (i 2).val < 32 := (i 2).isLt
  have h3 : (i 3).val < 32 := (i 3).isLt
  intro ax
  match ax with
  | ⟨0, _⟩ => show win0_4.index (pointOf i) (0 : Fin 4) * 1 ≤ (i 0).val ∧ (i 0).val < win0_4.index (pointOf i) (0 : Fin 4) * 1 + 1; omega
  | ⟨1, _⟩ => show win0_4.index (pointOf i) (1 : Fin 4) * 128 ≤ (i 1).val ∧ (i 1).val < win0_4.index (pointOf i) (1 : Fin 4) * 128 + 128; omega
  | ⟨2, _⟩ => show win0_4.index (pointOf i) (2 : Fin 4) * 32 ≤ (i 2).val ∧ (i 2).val < win0_4.index (pointOf i) (2 : Fin 4) * 32 + 32; omega
  | ⟨3, _⟩ => show win0_4.index (pointOf i) (3 : Fin 4) * 32 ≤ (i 3).val ∧ (i 3).val < win0_4.index (pointOf i) (3 : Fin 4) * 32 + 32; omega

theorem coverLogDev (i : S16x128x32x32.Idx) :
    ∃ t : Fin cfg0.N, (cfg0.win 5).flush t = true ∧ i ∈ ((cfg0.win 5).blk t).view.set := by
  refine ⟨pointOf i, flush0_5 _, ?_⟩
  rw [mem_blkLogDev]
  obtain ⟨-, -, -, -, -, -, -, -, -, -, -, -, -, -, e0, e1, e2, e3⟩ := blocks0 (pointOf i)
  have ht : (pointOf i).val = (i 0).val := rfl
  have h1 : (i 1).val < 128 := (i 1).isLt
  have h2 : (i 2).val < 32 := (i 2).isLt
  have h3 : (i 3).val < 32 := (i 3).isLt
  intro ax
  match ax with
  | ⟨0, _⟩ => show win0_5.index (pointOf i) (0 : Fin 4) * 1 ≤ (i 0).val ∧ (i 0).val < win0_5.index (pointOf i) (0 : Fin 4) * 1 + 1; omega
  | ⟨1, _⟩ => show win0_5.index (pointOf i) (1 : Fin 4) * 128 ≤ (i 1).val ∧ (i 1).val < win0_5.index (pointOf i) (1 : Fin 4) * 128 + 128; omega
  | ⟨2, _⟩ => show win0_5.index (pointOf i) (2 : Fin 4) * 32 ≤ (i 2).val ∧ (i 2).val < win0_5.index (pointOf i) (2 : Fin 4) * 32 + 32; omega
  | ⟨3, _⟩ => show win0_5.index (pointOf i) (3 : Fin 4) * 32 ≤ (i 3).val ∧ (i 3).val < win0_5.index (pointOf i) (3 : Fin 4) * 32 + 32; omega

/-! ## The two result arrays after the run -/

/-- THE MEANS' ARRAY after the first pallas_call: the product's mean of the four arrays as the region finds them. -/
theorem finalMean (c : Dev nD) :
    (dat0 V c).arrAt 4 cfg0.N = childMean (V c main_v10) (V c main_v17) (V c main_v2) (V c main_v3) :=
  (dat0 V c).arrAt_eq_of_cover 4 _ (fun t _ => flushedMean V c t) coverMean

/-- THE LOG-DEVIATIONS' ARRAY after the first pallas_call. -/
theorem finalLogDev (c : Dev nD) : (dat0 V c).arrAt 5 cfg0.N = childLogDev (V c main_v17) (V c main_v3) :=
  (dat0 V c).arrAt_eq_of_cover 5 _ (fun t _ => flushedLogDev V c t) coverLogDev

end Cert.KernelIdeal.Whole

end
-- ==== Proof.Payload1.lean ====
/-
  The second pallas_call's arithmetic at one index of its block.

  At a grid point the body holds 1016 rows of the first product's means and log-deviations (blocks `[1016, 32]` over
  (r, k)) and the whole parent-transition arrays (`[32, 32]` over (k, c)). It repeats each row matrix along a new
  trailing axis `c` and each transition matrix along a new leading axis `r`, and computes, in the cube (r, k, c), the
  scale of the product of the row's Gaussian at (r, k) with the transition at (k, c).
-/
import proofs.«156737_j65566970741220_2_alg».proof.Proof.Gen.KernelIdeal.Skeleton
import proofs.«156737_j65566970741220_2_alg».proof.Proof.LibUnitAxes
import proofs.«156737_j65566970741220_2_alg».proof.Proof.Spec

noncomputable section

namespace Cert.KernelIdeal.Body

open Cert.KernelIdeal Cert.KernelIdeal.Gen Idealize.ShloMosaic Idealize.ShloMosaic.ValueIdx Idealize.ShloMosaic.UnitAxes
open Cert.GaussProduct

/-- A row matrix repeated along the label axis `c`: at (r, k, c) it is the matrix at (r, k). -/
theorem row_at {α : Type} (x : S1016x32.Idx → α) (r : Fin 1016) (k c : Fin 32) :
    broadcastTo S1016x32x32 (shapeCast S1016x32x1 (shapeCast S1016x32 x shapeCasts_S1016x32_S1016x32) shapeCasts_S1016x32_S1016x32x1)
        broadcasts_S1016x32x1_S1016x32x32 (ix3 r k c) = x (ix2 r k) :=
  (along_trailing _ _ _ r k c).trans (congrFun (shapeCast_self x _) _)

/-- A transition matrix repeated along the row axis `r`: at (r, k, c) it is the matrix at (k, c). -/
theorem parent_at {α : Type} (x : S32x32.Idx → α) (r : Fin 1016) (k c : Fin 32) :
    broadcastTo S1016x32x32 (shapeCast S1x32x32 (shapeCast S32x32 x shapeCasts_S32x32_S32x32) shapeCasts_S32x32_S1x32x32)
        broadcasts_S1x32x32_S1016x32x32 (ix3 r k c) = x (ix2 k c) :=
  (along_leading _ _ _ r k c).trans (congrFun (shapeCast_self x _) _)

/-- The row's variance `exp (2·v)`, repeated along `c`. -/
theorem rowVar_at (x1 : Vec Ideal S1016x32 .f32) (r : Fin 1016) (k c : Fin 32) :
    broadcastTo S1016x32x32 (shapeCast S1016x32x1
        (fun i => Ideal.exp (two * shapeCast S1016x32 x1 shapeCasts_S1016x32_S1016x32 i) : S1016x32.Idx → Ideal .f32)
        shapeCasts_S1016x32_S1016x32x1) broadcasts_S1016x32x1_S1016x32x32 (ix3 r k c)
      = Ideal.exp (two * x1 (ix2 r k)) := by
  refine (along_trailing _ _ _ r k c).trans ?_
  show Ideal.exp (two * shapeCast S1016x32 x1 shapeCasts_S1016x32_S1016x32 (ix2 r k)) = _
  rw [shapeCast_self]

/-- The transition's variance `exp (2·v)`, repeated along `r`. -/
theorem parentVar_at (x3 : Vec Ideal S32x32 .f32) (r : Fin 1016) (k c : Fin 32) :
    broadcastTo S1016x32x32 (shapeCast S1x32x32
        (fun i => Ideal.exp (two * shapeCast S32x32 x3 shapeCasts_S32x32_S32x32 i) : S32x32.Idx → Ideal .f32)
        shapeCasts_S32x32_S1x32x32) broadcasts_S1x32x32_S1016x32x32 (ix3 r k c)
      = Ideal.exp (two * x3 (ix2 k c)) := by
  refine (along_leading _ _ _ r k c).trans ?_
  show Ideal.exp (two * shapeCast S32x32 x3 shapeCasts_S32x32_S32x32 (ix2 k c)) = _
  rw [shapeCast_self]

/-- THE SCALE the body stores at (r, k, c). -/
theorem scale_at (x0 x1 : Vec Ideal S1016x32 .f32) (x2 x3 : Vec Ideal S32x32 .f32) (r : Fin 1016) (k c : Fin 32) :
    k1_pay1 (F := Ideal) x0 x1 x2 x3 (ix3 r k c)
      = scale (x0 (ix2 r k)) (x1 (ix2 r k)) (x2 (ix2 k c)) (x3 (ix2 k c)) := by
  unfold k1_pay1
  show negHalf *
      ((log2pi + Ideal.log
          (broadcastTo S1016x32x32 (shapeCast S1016x32x1
              (fun i => Ideal.exp (two * shapeCast S1016x32 x1 shapeCasts_S1016x32_S1016x32 i) : S1016x32.Idx → Ideal .f32)
              shapeCasts_S1016x32_S1016x32x1) broadcasts_S1016x32x1_S1016x32x32 (ix3 r k c)
            + broadcastTo S1016x32x32 (shapeCast S1x32x32
              (fun i => Ideal.exp (two * shapeCast S32x32 x3 shapeCasts_S32x32_S32x32 i) : S32x32.Idx → Ideal .f32)
              shapeCasts_S32x32_S1x32x32) broadcasts_S1x32x32_S1016x32x32 (ix3 r k c)))
        + Ideal.div
          ((broadcastTo S1016x32x32 (shapeCast S1016x32x1 (shapeCast S1016x32 x0 shapeCasts_S1016x32_S1016x32) shapeCasts_S1016x32_S1016x32x1)
                broadcasts_S1016x32x1_S1016x32x32 (ix3 r k c)
              - broadcastTo S1016x32x32 (shapeCast S1x32x32 (shapeCast S32x32 x2 shapeCasts_S32x32_S32x32) shapeCasts_S32x32_S1x32x32)
                broadcasts_S1x32x32_S1016x32x32 (ix3 r k c))
            * (broadcastTo S1016x32x32 (shapeCast S1016x32x1 (shapeCast S1016x32 x0 shapeCasts_S1016x32_S1016x32) shapeCasts_S1016x32_S1016x32x1)
                broadcasts_S1016x32x1_S1016x32x32 (ix3 r k c)
              - broadcastTo S1016x32x32 (shapeCast S1x32x32 (shapeCast S32x32 x2 shapeCasts_S32x32_S32x32) shapeCasts_S32x32_S1x32x32)
                broadcasts_S1x32x32_S1016x32x32 (ix3 r k c)))
          (broadcastTo S1016x32x32 (shapeCast S1016x32x1
              (fun i => Ideal.exp (two * shapeCast S1016x32 x1 shapeCasts_S1016x32_S1016x32 i) : S1016x32.Idx → Ideal .f32)
              shapeCasts_S1016x32_S1016x32x1) broadcasts_S1016x32x1_S1016x32x32 (ix3 r k c)
            + broadcastTo S1016x32x32 (shapeCast S1x32x32
              (fun i => Ideal.exp (two * shapeCast S32x32 x3 shapeCasts_S32x32_S32x32 i) : S32x32.Idx → Ideal .f32)
              shapeCasts_S32x32_S1x32x32) broadcasts_S1x32x32_S1016x32x32 (ix3 r k c))) = _
  rw [row_at, parent_at, rowVar_at, parentVar_at]
  rfl

end Cert.KernelIdeal.Body

end
-- ==== Proof.Region1.lean ====
/-
  What the second pallas_call leaves in its result array.

  Its operands are the first product's means and log-deviations flattened to 65024 rows of 32 labels, and the whole
  parent-transition arrays. The grid has 64 points; point `t` reads rows `t·1016 … t·1016 + 1015` of the two row
  arrays and writes the same rows of the result `[65024, 32, 32]`. A block's element with inner coordinates (r, …) sits
  in its array at row `t·1016 + r`, so what point `t` writes is block `t` of ONE whole-array function of the four arrays
  as the region finds them: the scale of the product of row `R`'s Gaussian at label `k` with the transition at (k, c).
  The 64 blocks tile the result (row `R` is in the block of point `R / 1016`), so after the run the array IS that
  function.
-/
import proofs.«156737_j65566970741220_2_alg».proof.Proof.Gen.KernelIdeal.Frame
import proofs.«156737_j65566970741220_2_alg».proof.Proof.Payload1

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GaussProduct Cert.KernelIdeal.Body

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- The printed index maps, decided over the 64 points: the row windows and the result window sit at block (t, 0, …)
    at point `t`, the transition windows at block (0, 0). -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The row of the flattened arrays that point `t` holds at row `r` of its block. -/
def rowAt (t : Fin cfg1.N) (r : Fin 1016) : Fin 65024 :=
  ⟨t.val * 1016 + r.val, by have h : t.val < grid1.N := t.isLt; have := N_1; omega⟩

/-! ## Where a block's element sits in its array -/

theorem embRowMu (t : Fin cfg1.N) (r : Fin 1016) (k : Fin 32) :
    ((cfg1.win 0).blk t).view.emb (ix2 r k) = ix2 (rowAt t r) k := by
  obtain ⟨e0, e1, -⟩ := blocks1 t
  funext ax; apply Fin.ext
  match ax with
  | ⟨0, _⟩ => show win1_0.index t (0 : Fin 2) * 1016 + 1 * r.val = t.val * 1016 + r.val; omega
  | ⟨1, _⟩ => show win1_0.index t (1 : Fin 2) * 32 + 1 * k.val = k.val; omega

theorem embRowVar (t : Fin cfg1.N) (r : Fin 1016) (k : Fin 32) :
    ((cfg1.win 1).blk t).view.emb (ix2 r k) = ix2 (rowAt t r) k := by
  obtain ⟨-, -, e0, e1, -⟩ := blocks1 t
  funext ax; apply Fin.ext
  match ax with
  | ⟨0, _⟩ => show win1_1.index t (0 : Fin 2) * 1016 + 1 * r.val = t.val * 1016 + r.val; omega
  | ⟨1, _⟩ => show win1_1.index t (1 : Fin 2) * 32 + 1 * k.val = k.val; omega

theorem embParentMu (t : Fin cfg1.N) (k c : Fin 32) : ((cfg1.win 2).blk t).view.emb (ix2 k c) = ix2 k c := by
  obtain ⟨-, -, -, -, e0, e1, -⟩ := blocks1 t
  funext ax; apply Fin.ext
  match ax with
  | ⟨0, _⟩ => show win1_2.index t (0 : Fin 2) * 32 + 1 * k.val = k.val; omega
  | ⟨1, _⟩ => show win1_2.index t (1 : Fin 2) * 32 + 1 * c.val = c.val; omega

theorem embParentVar (t : Fin cfg1.N) (k c : Fin 32) : ((cfg1.win 3).blk t).view.emb (ix2 k c) = ix2 k c := by
  obtain ⟨-, -, -, -, -, -, e0, e1, -⟩ := blocks1 t
  funext ax; apply Fin.ext
  match ax with
  | ⟨0, _⟩ => show win1_3.index t (0 : Fin 2) * 32 + 1 * k.val = k.val; omega
  | ⟨1, _⟩ => show win1_3.index t (1 : Fin 2) * 32 + 1 * c.val = c.val; omega

theorem embScale (t : Fin cfg1.N) (r : Fin 1016) (k c : Fin 32) :
    ((cfg1.win 4).blk t).view.emb (ix3 r k c) = ix3 (rowAt t r) k c := by
  obtain ⟨-, -, -, -, -, -, -, -, e0, e1, e2⟩ := blocks1 t
  funext ax; apply Fin.ext
  match ax with
  | ⟨0, _⟩ => show win1_4.index t (0 : Fin 3) * 1016 + 1 * r.val = t.val * 1016 + r.val; omega
  | ⟨1, _⟩ => show win1_4.index t (1 : Fin 3) * 32 + 1 * k.val = k.val; omega
  | ⟨2, _⟩ => show win1_4.index t (2 : Fin 3) * 32 + 1 * c.val = c.val; omega

/-! ## What a point writes back -/

/-- Point `t` writes back block `t` of the second product's scale taken over the whole arrays. -/
theorem flushedScale (c : Dev nD) (t : Fin cfg1.N) :
    (dat1 V c).flushed 4 t = ((cfg1.win 4).blk t).view.read (Elt Ideal)
      (parentScale (V c main_v21) (V c main_v22) (V c main_v0) (V c main_v1)) := by
  show (cfg1.win 4).cut (grid1.coords t) ((dat1 V c).after 4 t) = _
  rw [after1_4]
  unfold out1_4
  rw [View.canon_unit_zero origin3]
  simp only [View.ld_unit_zero (S := S1016x32) origin2, View.ld_unit_zero (S := S32x32) origin2]
  funext j
  obtain ⟨r, k, cc, rfl⟩ : ∃ (r : Fin 1016) (k cc : Fin 32), j = ix3 r k cc := ⟨j 0, j 1, j 2, eq_ix3 j⟩
  show k1_pay1 (F := Ideal) (iblk1 V c 0 t) (iblk1 V c 1 t) (iblk1 V c 2 t) (iblk1 V c 3 t) (ix3 r k cc)
    = parentScale (V c main_v21) (V c main_v22) (V c main_v0) (V c main_v1) (((cfg1.win 4).blk t).view.emb (ix3 r k cc))
  rw [embScale]
  refine (scale_at _ _ _ _ r k cc).trans ?_
  show scale (V c main_v21 (((cfg1.win 0).blk t).view.emb (ix2 r k))) (V c main_v22 (((cfg1.win 1).blk t).view.emb (ix2 r k)))
      (V c main_v0 (((cfg1.win 2).blk t).view.emb (ix2 k cc))) (V c main_v1 (((cfg1.win 3).blk t).view.emb (ix2 k cc)))
    = scale (V c main_v21 (ix2 (rowAt t r) k)) (V c main_v22 (ix2 (rowAt t r) k)) (V c main_v0 (ix2 k cc)) (V c main_v1 (ix2 k cc))
  rw [embRowMu, embRowVar, embParentMu, embParentVar]

/-! ## The 64 blocks tile the result -/

/-- An index of the result is in point `t`'s block iff each coordinate is in the block's range on its axis. -/
theorem mem_blkScale (t : Fin cfg1.N) (i : S65024x32x32.Idx) :
    i ∈ ((cfg1.win 4).blk t).view.set ↔ ∀ a : Fin 3, win1_4.index t a * S1016x32x32.size a ≤ (i a).val
      ∧ (i a).val < win1_4.index t a * S1016x32x32.size a + S1016x32x32.size a := by
  show i ∈ ((View.whole main_v23).slice (win1_4.rect t)).set ↔ _
  rw [View.set_slice_whole, Rect.mem_set_unit]
  exact Iff.rfl

/-- The point whose block holds an index's row. -/
def pointOfRow (i : S65024x32x32.Idx) : Fin cfg1.N :=
  ⟨(i 0).val / 1016, by have h : (i 0).val < 65024 := (i 0).isLt; have := N_1; show (i 0).val / 1016 < grid1.N; omega⟩

/-- Every index (R, k, c) of the result is in the block of point `R / 1016`. -/
theorem coverScale (i : S65024x32x32.Idx) :
    ∃ t : Fin cfg1.N, (cfg1.win 4).flush t = true ∧ i ∈ ((cfg1.win 4).blk t).view.set := by
  refine ⟨pointOfRow i, flush1_4 _, ?_⟩
  rw [mem_blkScale]
  obtain ⟨-, -, -, -, -, -, -, -, e0, e1, e2⟩ := blocks1 (pointOfRow i)
  have ht : (pointOfRow i).val = (i 0).val / 1016 := rfl
  have h0 : (i 0).val < 65024 := (i 0).isLt
  have h1 : (i 1).val < 32 := (i 1).isLt
  have h2 : (i 2).val < 32 := (i 2).isLt
  intro ax
  match ax with
  | ⟨0, _⟩ => show win1_4.index (pointOfRow i) (0 : Fin 3) * 1016 ≤ (i 0).val ∧ (i 0).val < win1_4.index (pointOfRow i) (0 : Fin 3) * 1016 + 1016; omega
  | ⟨1, _⟩ => show win1_4.index (pointOfRow i) (1 : Fin 3) * 32 ≤ (i 1).val ∧ (i 1).val < win1_4.index (pointOfRow i) (1 : Fin 3) * 32 + 32; omega
  | ⟨2, _⟩ => show win1_4.index (pointOfRow i) (2 : Fin 3) * 32 ≤ (i 2).val ∧ (i 2).val < win1_4.index (pointOfRow i) (2 : Fin 3) * 32 + 32; omega

/-- THE SCALES' ARRAY after the second pallas_call: the second product's scale of the four arrays as the region
    finds them. -/
theorem finalScale (c : Dev nD) :
    (dat1 V c).arrAt 4 cfg1.N = parentScale (V c main_v21) (V c main_v22) (V c main_v0) (V c main_v1) :=
  (dat1 V c).arrAt_eq_of_cover 4 _ (fun t _ => flushedScale V c t) coverScale

end Cert.KernelIdeal.Whole

end
-- ==== Proof.KernelValue.lean ====
/-
  The five result arrays of the idealized kernel as functions of its seven arguments.

  The last boundary's contents `W5` are the launch memory folded through @main's five segments. Read at a result buffer
  the fold unwinds stage by stage: a stretch of host operations is its operations' composed term of the previous
  boundary's buffers; a pallas_call leaves its result arrays at the Gaussian-product arrays of its operands as it
  found them, and every other buffer as it was.
-/
import proofs.«156737_j65566970741220_2_alg».proof.Proof.KernelRun
import proofs.«156737_j65566970741220_2_alg».proof.Proof.Region0
import proofs.«156737_j65566970741220_2_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.ValueIdx Cert.GaussProduct

variable (m : (ℓ : Loc nD τ sig) → Buf (Elt Ideal) ℓ) (ρ : Dev nD → PrngReg)

/-- The rows of an emission table that the tokens select: a negative token counts from the table's end (50000 is
    added to it), and the row is then gathered. The term is the program's own; it is never opened. -/
def rowsOf (tokens : (⟨S16x128, .i32⟩ : BufTy).Contents (Elt Ideal)) (table : (⟨S50000x32, .f32⟩ : BufTy).Contents (Elt Ideal)) :
    (⟨S16x128x32, .f32⟩ : BufTy).Contents (Elt Ideal) :=
  Host.gather gather_S50000x32_S16x128x1_S16x128x32_2_0_n_n_0_2_132 table
    (broadcastInDim S16x128x1 ![0, 1] bcast_S16x128_S16x128x1_0_1
      (select (cmpi .slt tokens (broadcastInDim S16x128 ![] bcast_S_S16x128 (constantI S_ 32 0#32)))
        (addi tokens (broadcastInDim S16x128 ![] bcast_S_S16x128 (constantI S_ 32 50000#32))) tokens))

/-- A transition array `[32, 32, 1, 1]` with its two unit axes dropped. -/
def flat (x : (⟨S32x32x1x1, .f32⟩ : BufTy).Contents (Elt Ideal)) : (⟨S32x32, .f32⟩ : BufTy).Contents (Elt Ideal) :=
  shapeCast S32x32 x shapeCasts_S32x32x1x1_S32x32

/-! ## The first pallas_call's operands -/

theorem entry_v10 (c : Dev nD) :
    V1 m ρ c main_v10 = rowsOf (m ((c : Thread nD τ).loc main_arg0)) (m ((c : Thread nD τ).loc main_arg5)) := by
  show StableHlo.after hostOps0 (W0 m ρ c) (Proc.devRef .tc main_v10) = _
  after_results
  rfl

theorem entry_v17 (c : Dev nD) :
    V1 m ρ c main_v17 = rowsOf (m ((c : Thread nD τ).loc main_arg0)) (m ((c : Thread nD τ).loc main_arg6)) := by
  show StableHlo.after hostOps0 (W0 m ρ c) (Proc.devRef .tc main_v17) = _
  after_results
  rfl

theorem entry_v0 (c : Dev nD) : V1 m ρ c main_v0 = flat (m ((c : Thread nD τ).loc main_arg1)) := by
  show StableHlo.after hostOps0 (W0 m ρ c) (Proc.devRef .tc main_v0) = _
  after_results
  rfl

theorem entry_v1 (c : Dev nD) : V1 m ρ c main_v1 = flat (m ((c : Thread nD τ).loc main_arg2)) := by
  show StableHlo.after hostOps0 (W0 m ρ c) (Proc.devRef .tc main_v1) = _
  after_results
  rfl

theorem entry_v2 (c : Dev nD) : V1 m ρ c main_v2 = flat (m ((c : Thread nD τ).loc main_arg3)) := by
  show StableHlo.after hostOps0 (W0 m ρ c) (Proc.devRef .tc main_v2) = _
  after_results
  rfl

theorem entry_v3 (c : Dev nD) : V1 m ρ c main_v3 = flat (m ((c : Thread nD τ).loc main_arg4)) := by
  show StableHlo.after hostOps0 (W0 m ρ c) (Proc.devRef .tc main_v3) = _
  after_results
  rfl

/-! ## The arrays the program computes, as functions of the arguments -/

/-- The emission means the tokens select. -/
def emisMu (c : Dev nD) := rowsOf (m ((c : Thread nD τ).loc main_arg0)) (m ((c : Thread nD τ).loc main_arg5))
/-- The emission log-deviations the tokens select. -/
def emisVar (c : Dev nD) := rowsOf (m ((c : Thread nD τ).loc main_arg0)) (m ((c : Thread nD τ).loc main_arg6))

/-- The first product's means over (b, l, a, k). -/
def meanArr (c : Dev nD) : S16x128x32x32.Idx → Ideal .f32 :=
  childMean (emisMu m c) (emisVar m c) (flat (m ((c : Thread nD τ).loc main_arg3))) (flat (m ((c : Thread nD τ).loc main_arg4)))
/-- The first product's log-deviations over (b, l, a, k). -/
def logDevArr (c : Dev nD) : S16x128x32x32.Idx → Ideal .f32 :=
  childLogDev (emisVar m c) (flat (m ((c : Thread nD τ).loc main_arg4)))

/-- All positions but the last, flattened to rows (b, l, a) of labels k. -/
def rowsFrom (x : S16x128x32x32.Idx → Ideal .f32) : S65024x32.Idx → Ideal .f32 :=
  shapeCast S65024x32 (extractStridedSlice S16x127x32x32 ![0, 0, 0, 0] x slices_S16x128x32x32_S16x127x32x32_0_0_0_0)
    shapeCasts_S16x127x32x32_S65024x32

/-- The second product's scales over (row, k, c). -/
def scaleArr (c : Dev nD) : S65024x32x32.Idx → Ideal .f32 :=
  parentScale (rowsFrom (meanArr m c)) (rowsFrom (logDevArr m c))
    (flat (m ((c : Thread nD τ).loc main_arg1))) (flat (m ((c : Thread nD τ).loc main_arg2)))

/-! ## After the first pallas_call -/

theorem exit0_mean (c : Dev nD) : W2 m ρ c (Proc.devRef .tc main_v18_0) = meanArr m c := by
  refine (W2_arr m ρ c 4).trans ?_
  rw [finalMean, entry_v10, entry_v17, entry_v2, entry_v3]
  rfl

theorem exit0_logDev (c : Dev nD) : W2 m ρ c (Proc.devRef .tc main_v18_1) = logDevArr m c := by
  refine (W2_arr m ρ c 5).trans ?_
  rw [finalLogDev, entry_v17, entry_v3]
  rfl

/-! ## The second pallas_call's operands -/

theorem entry1_v21 (c : Dev nD) : V3 m ρ c main_v21 = rowsFrom (meanArr m c) := by
  show StableHlo.after hostOps1 (W2 m ρ c) (Proc.devRef .tc main_v21) = _
  after_results
  rw [exit0_mean]
  rfl

theorem entry1_v22 (c : Dev nD) : V3 m ρ c main_v22 = rowsFrom (logDevArr m c) := by
  show StableHlo.after hostOps1 (W2 m ρ c) (Proc.devRef .tc main_v22) = _
  after_results
  rw [exit0_logDev]
  rfl

theorem entry1_v0 (c : Dev nD) : V3 m ρ c main_v0 = flat (m ((c : Thread nD τ).loc main_arg1)) := by
  show StableHlo.after hostOps1 (W2 m ρ c) (Proc.devRef .tc main_v0) = _
  after_results
  exact (W2_of_ne m ρ c main_v0 (by decide)).trans (entry_v0 m ρ c)

theorem entry1_v1 (c : Dev nD) : V3 m ρ c main_v1 = flat (m ((c : Thread nD τ).loc main_arg2)) := by
  show StableHlo.after hostOps1 (W2 m ρ c) (Proc.devRef .tc main_v1) = _
  after_results
  exact (W2_of_ne m ρ c main_v1 (by decide)).trans (entry_v1 m ρ c)

/-! ## After the second pallas_call -/

theorem exit1_scale (c : Dev nD) : W4 m ρ c (Proc.devRef .tc main_v23) = scaleArr m c := by
  refine (W4_arr m ρ c 4).trans ?_
  rw [finalScale, entry1_v21, entry1_v22, entry1_v0, entry1_v1]
  rfl

theorem exit1_mean (c : Dev nD) : W4 m ρ c (Proc.devRef .tc main_v18_0) = meanArr m c := by
  refine (W4_of_ne m ρ c main_v18_0 (by decide)).trans ?_
  show StableHlo.after hostOps1 (W2 m ρ c) (Proc.devRef .tc main_v18_0) = _
  after_results
  exact exit0_mean m ρ c

theorem exit1_logDev (c : Dev nD) : W4 m ρ c (Proc.devRef .tc main_v18_1) = logDevArr m c := by
  refine (W4_of_ne m ρ c main_v18_1 (by decide)).trans ?_
  show StableHlo.after hostOps1 (W2 m ρ c) (Proc.devRef .tc main_v18_1) = _
  after_results
  exact exit0_logDev m ρ c

/-- The parent-transition arrays are operands the second pallas_call only reads: they leave it as they entered. -/
theorem exit1_v0 (c : Dev nD) : W4 m ρ c (Proc.devRef .tc main_v0) = flat (m ((c : Thread nD τ).loc main_arg1)) := by
  refine (W4_arr m ρ c 2).trans ?_
  rw [(dat1 (V3 m ρ) c).arrAt_in 2 rfl, A_eq1]
  exact entry1_v0 m ρ c

theorem exit1_v1 (c : Dev nD) : W4 m ρ c (Proc.devRef .tc main_v1) = flat (m ((c : Thread nD τ).loc main_arg2)) := by
  refine (W4_arr m ρ c 3).trans ?_
  rw [(dat1 (V3 m ρ) c).arrAt_in 3 rfl, A_eq1]
  exact entry1_v1 m ρ c

/-! ## The five results -/

/-- A flattened transition array repeated over every batch row and position. -/
def everywhere (x : (⟨S32x32, .f32⟩ : BufTy).Contents (Elt Ideal)) : (⟨S16x128x32x32x1x1, .f32⟩ : BufTy).Contents (Elt Ideal) :=
  broadcastInDim S16x128x32x32x1x1 ![0, 1, 2, 3, 4, 5] bcast_S1x1x32x32x1x1_S16x128x32x32x1x1_0_1_2_3_4_5
    (shapeCast S1x1x32x32x1x1 x shapeCasts_S32x32_S1x1x32x32x1x1)

theorem result_scale (c : Dev nD) : W5 m ρ c (Proc.devRef .tc main_v24)
    = shapeCast S16x127x32x32x32x1x1x1 (scaleArr m c) shapeCasts_S65024x32x32_S16x127x32x32x32x1x1x1 := by
  show StableHlo.after hostOps2 (W4 m ρ c) (Proc.devRef .tc main_v24) = _
  after_results
  rw [exit1_scale]
  rfl

theorem result_mean (c : Dev nD) : W5 m ρ c (Proc.devRef .tc main_v25)
    = shapeCast S16x128x32x32x1x1x1 (meanArr m c) shapeCasts_S16x128x32x32_S16x128x32x32x1x1x1 := by
  show StableHlo.after hostOps2 (W4 m ρ c) (Proc.devRef .tc main_v25) = _
  after_results
  rw [exit1_mean]
  rfl

theorem result_logDev (c : Dev nD) : W5 m ρ c (Proc.devRef .tc main_v26)
    = shapeCast S16x128x32x32x1x1x1 (logDevArr m c) shapeCasts_S16x128x32x32_S16x128x32x32x1x1x1 := by
  show StableHlo.after hostOps2 (W4 m ρ c) (Proc.devRef .tc main_v26) = _
  after_results
  rw [exit1_logDev]
  rfl

theorem result_parentMu (c : Dev nD) : W5 m ρ c (Proc.devRef .tc main_v28)
    = everywhere (flat (m ((c : Thread nD τ).loc main_arg1))) := by
  show StableHlo.after hostOps2 (W4 m ρ c) (Proc.devRef .tc main_v28) = _
  after_results
  rw [exit1_v0]
  rfl

theorem result_parentVar (c : Dev nD) : W5 m ρ c (Proc.devRef .tc main_v30)
    = everywhere (flat (m ((c : Thread nD τ).loc main_arg2))) := by
  show StableHlo.after hostOps2 (W4 m ρ c) (Proc.devRef .tc main_v30) = _
  after_results
  rw [exit1_v1]
  rfl

end Cert.KernelIdeal.Whole

end
-- ==== Proof.Pointwise.lean ====
/-
  Each result at one index, written over the arguments' own indices.

  Both programs compute, from the emission rows `sμ, sv` over (b, l, k) that the tokens select and from the four
  transition arrays `[32, 32, 1, 1]` over (·, ·, 0, 0):
    the first product's mean and log-deviation at (b, l, a, k): emission (b, l, k) times child transition (a, k);
    the second product's scale at (b, t, a, k, c), for every position `t` but the last: the first product at
      (b, t, a, k) times parent transition (k, c).
  These are the functions both sides are shown to compute; they mention no program and no layout operation.
-/
import proofs.«156737_j65566970741220_2_alg».proof.Proof.Spec

noncomputable section

namespace Cert.GaussProduct

open Idealize.ShloMosaic Idealize.ShloMosaic.ValueIdx

/-- Emission rows, over (batch row, position, label). -/
abbrev Rows := (⟨3, ![16, 128, 32]⟩ : Shape).Idx → Ideal .f32
/-- A transition array, over (label, label, 0, 0). -/
abbrev Trans := (⟨4, ![32, 32, 1, 1]⟩ : Shape).Idx → Ideal .f32

/-- A transition array's entry. -/
abbrev at2 (x : Trans) (p q : Fin 32) : Ideal .f32 := x (ix4 p q (0 : Fin 1) (0 : Fin 1))

/-- The first product's mean at (b, l, a, k). -/
def meanPt (sμ sv : Rows) (cμ cv : Trans) (b : Fin 16) (l : Fin 128) (a k : Fin 32) : Ideal .f32 :=
  mean (sμ (ix3 b l k)) (sv (ix3 b l k)) (at2 cμ a k) (at2 cv a k)

/-- The first product's log-deviation at (b, l, a, k). -/
def logDevPt (sv : Rows) (cv : Trans) (b : Fin 16) (l : Fin 128) (a k : Fin 32) : Ideal .f32 :=
  logDev (sv (ix3 b l k)) (at2 cv a k)

/-- A position other than the last, as a position. -/
abbrev inner (t : Fin 127) : Fin 128 := ⟨t.val, by omega⟩

/-- The second product's scale at (b, t, a, k, c). -/
def scalePt (sμ sv : Rows) (pμ pv cμ cv : Trans) (b : Fin 16) (t : Fin 127) (a k c : Fin 32) : Ideal .f32 :=
  scale (meanPt sμ sv cμ cv b (inner t) a k) (logDevPt sv cv b (inner t) a k) (at2 pμ k c) (at2 pv k c)

end Cert.GaussProduct

end
-- ==== Proof.LibRowMajor.lean ====
/-
  Row-major positions of indices of rank seven and eight.

  The position of an index `i` of a shape with extents `d` is the mixed-radix number whose digits are the coordinates
  of `i`, the last axis the fastest: `(...((i₀·d₁ + i₁)·d₂ + i₂)...)·dₙ₋₁ + iₙ₋₁`. A reshape keeps an element's
  position, so reading a reshaped array at an index is an equation between two such numbers; these two lemmas spell
  the number out for the two ranks the library's own lemmas (ranks one to six) stop short of.
-/
import Idealize.ShloMosaic.Lib.ValueIdx

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
        + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Idealize.ShloMosaic
-- ==== Proof.KernelAt.lean ====
/-
  The idealized kernel's five results read at one index.

  Each result is a reshape (or a reshape and a broadcast) of an array computed in another layout, and a reshape keeps
  an element's row-major position. So the result at (b, l, a, k, 0, 0, 0) is the first product's array at
  (b, l, a, k); the scales' result at (b, t, a, k, c, 0, 0, 0) is the second product's array at row
  `(b·127 + t)·32 + a`, label k, label c, and that row of the flattened slice is the first product at (b, t, a, k); a
  flattened transition array at (p, q) is the argument at (p, q, 0, 0). Every step is one equation between two
  mixed-radix numbers.
-/
import proofs.«156737_j65566970741220_2_alg».proof.Proof.KernelValue
import proofs.«156737_j65566970741220_2_alg».proof.Proof.Pointwise
import proofs.«156737_j65566970741220_2_alg».proof.Proof.LibRowMajor
import Idealize.ShloMosaic.Lib.ValueIdxRank6

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GaussProduct

variable (m : (ℓ : Loc nD τ sig) → Buf (Elt Ideal) ℓ) (ρ : Dev nD → PrngReg)

/-- A flattened transition array at (p, q) is the argument at (p, q, 0, 0). -/
theorem flat_apply (x : (⟨S32x32x1x1, .f32⟩ : BufTy).Contents (Elt Ideal)) (p q : Fin 32) : flat x (ix2 p q) = at2 x p q := by
  unfold flat
  refine shapeCast_apply x _ (ix2 p q) (ix4 p q (0 : Fin 1) (0 : Fin 1)) ?_
  rw [Shape.rowMajor_val_four, Shape.rowMajor_val_two]
  show ((p.val * 32 + q.val) * 1 + 0) * 1 + 0 = p.val * 32 + q.val
  omega

/-- The first product's means at (b, l, a, k). -/
theorem meanArr_apply (c : Dev nD) (b : Fin 16) (l : Fin 128) (a k : Fin 32) :
    meanArr m c (ix4 b l a k) = meanPt (emisMu m c) (emisVar m c) (m ((c : Thread nD τ).loc main_arg3)) (m ((c : Thread nD τ).loc main_arg4)) b l a k := by
  unfold meanArr childMean meanPt
  show mean (emisMu m c (ix3 b l k)) (emisVar m c (ix3 b l k)) (flat (m ((c : Thread nD τ).loc main_arg3)) (ix2 a k))
    (flat (m ((c : Thread nD τ).loc main_arg4)) (ix2 a k)) = _
  rw [flat_apply, flat_apply]

/-- The first product's log-deviations at (b, l, a, k). -/
theorem logDevArr_apply (c : Dev nD) (b : Fin 16) (l : Fin 128) (a k : Fin 32) :
    logDevArr m c (ix4 b l a k) = logDevPt (emisVar m c) (m ((c : Thread nD τ).loc main_arg4)) b l a k := by
  unfold logDevArr childLogDev logDevPt
  show logDev (emisVar m c (ix3 b l k)) (flat (m ((c : Thread nD τ).loc main_arg4)) (ix2 a k)) = _
  rw [flat_apply]

/-- Row `(b·127 + t)·32 + a` of the flattened slice, at label k, is the array at (b, t, a, k). -/
theorem rowsFrom_apply (x : S16x128x32x32.Idx → Ideal .f32) (b : Fin 16) (t : Fin 127) (a k : Fin 32) (R : Fin 65024)
    (hR : R.val = (b.val * 127 + t.val) * 32 + a.val) : rowsFrom x (ix2 R k) = x (ix4 b (inner t) a k) := by
  unfold rowsFrom
  refine (shapeCast_apply _ _ (ix2 R k) (ix4 b t a k) ?_).trans ?_
  · rw [Shape.rowMajor_val_four, Shape.rowMajor_val_two]
    show ((b.val * 127 + t.val) * 32 + a.val) * 32 + k.val = R.val * 32 + k.val
    omega
  · refine extractStridedSlice_apply _ x _ (ix4 b t a k) (ix4 b (inner t) a k) fun ax => ?_
    match ax with
    | ⟨0, _⟩ => show b.val = 0 + b.val; omega
    | ⟨1, _⟩ => show t.val = 0 + t.val; omega
    | ⟨2, _⟩ => show a.val = 0 + a.val; omega
    | ⟨3, _⟩ => show k.val = 0 + k.val; omega

/-- The second product's scales at (row of (b, t, a), k, c). -/
theorem scaleArr_apply (c : Dev nD) (b : Fin 16) (t : Fin 127) (a k cc : Fin 32) (R : Fin 65024)
    (hR : R.val = (b.val * 127 + t.val) * 32 + a.val) :
    scaleArr m c (ix3 R k cc) = scalePt (emisMu m c) (emisVar m c) (m ((c : Thread nD τ).loc main_arg1)) (m ((c : Thread nD τ).loc main_arg2))
      (m ((c : Thread nD τ).loc main_arg3)) (m ((c : Thread nD τ).loc main_arg4)) b t a k cc := by
  unfold scaleArr parentScale scalePt
  show scale (rowsFrom (meanArr m c) (ix2 R k)) (rowsFrom (logDevArr m c) (ix2 R k))
    (flat (m ((c : Thread nD τ).loc main_arg1)) (ix2 k cc)) (flat (m ((c : Thread nD τ).loc main_arg2)) (ix2 k cc)) = _
  rw [rowsFrom_apply _ b t a k R hR, rowsFrom_apply _ b t a k R hR, flat_apply, flat_apply, meanArr_apply, logDevArr_apply]

/-! ## The results -/

/-- THE MEANS' RESULT at an index. -/
theorem result_mean_at (c : Dev nD) (i : S16x128x32x32x1x1x1.Idx) :
    shapeCast S16x128x32x32x1x1x1 (meanArr m c) shapeCasts_S16x128x32x32_S16x128x32x32x1x1x1 i
      = meanPt (emisMu m c) (emisVar m c) (m ((c : Thread nD τ).loc main_arg3)) (m ((c : Thread nD τ).loc main_arg4)) (i 0) (i 1) (i 2) (i 3) := by
  refine (shapeCast_apply (meanArr m c) _ i (ix4 (i 0) (i 1) (i 2) (i 3)) ?_).trans (meanArr_apply m c _ _ _ _)
  rw [Shape.rowMajor_val_four, Shape.rowMajor_val_seven]
  have h4 : (i 4).val < 1 := (i 4).isLt
  have h5 : (i 5).val < 1 := (i 5).isLt
  have h6 : (i 6).val < 1 := (i 6).isLt
  show (((i 0).val * 128 + (i 1).val) * 32 + (i 2).val) * 32 + (i 3).val
    = ((((((i 0).val * 128 + (i 1).val) * 32 + (i 2).val) * 32 + (i 3).val) * 1 + (i 4).val) * 1 + (i 5).val) * 1 + (i 6).val
  omega

/-- THE LOG-DEVIATIONS' RESULT at an index. -/
theorem result_logDev_at (c : Dev nD) (i : S16x128x32x32x1x1x1.Idx) :
    shapeCast S16x128x32x32x1x1x1 (logDevArr m c) shapeCasts_S16x128x32x32_S16x128x32x32x1x1x1 i
      = logDevPt (emisVar m c) (m ((c : Thread nD τ).loc main_arg4)) (i 0) (i 1) (i 2) (i 3) := by
  refine (shapeCast_apply (logDevArr m c) _ i (ix4 (i 0) (i 1) (i 2) (i 3)) ?_).trans (logDevArr_apply m c _ _ _ _)
  rw [Shape.rowMajor_val_four, Shape.rowMajor_val_seven]
  have h4 : (i 4).val < 1 := (i 4).isLt
  have h5 : (i 5).val < 1 := (i 5).isLt
  have h6 : (i 6).val < 1 := (i 6).isLt
  show (((i 0).val * 128 + (i 1).val) * 32 + (i 2).val) * 32 + (i 3).val
    = ((((((i 0).val * 128 + (i 1).val) * 32 + (i 2).val) * 32 + (i 3).val) * 1 + (i 4).val) * 1 + (i 5).val) * 1 + (i 6).val
  omega

/-- THE SCALES' RESULT at an index. -/
theorem result_scale_at (c : Dev nD) (i : S16x127x32x32x32x1x1x1.Idx) :
    shapeCast S16x127x32x32x32x1x1x1 (scaleArr m c) shapeCasts_S65024x32x32_S16x127x32x32x32x1x1x1 i
      = scalePt (emisMu m c) (emisVar m c) (m ((c : Thread nD τ).loc main_arg1)) (m ((c : Thread nD τ).loc main_arg2))
          (m ((c : Thread nD τ).loc main_arg3)) (m ((c : Thread nD τ).loc main_arg4)) (i 0) (i 1) (i 2) (i 3) (i 4) := by
  have h0 : (i 0).val < 16 := (i 0).isLt
  have h1 : (i 1).val < 127 := (i 1).isLt
  have h2 : (i 2).val < 32 := (i 2).isLt
  have h5 : (i 5).val < 1 := (i 5).isLt
  have h6 : (i 6).val < 1 := (i 6).isLt
  have h7 : (i 7).val < 1 := (i 7).isLt
  refine (shapeCast_apply (scaleArr m c) _ i
      (ix3 (⟨((i 0).val * 127 + (i 1).val) * 32 + (i 2).val, by omega⟩ : Fin 65024) (i 3) (i 4)) ?_).trans
    (scaleArr_apply m c (i 0) (i 1) (i 2) (i 3) (i 4) _ rfl)
  rw [Shape.rowMajor_val_three, Shape.rowMajor_val_eight]
  show ((((i 0).val * 127 + (i 1).val) * 32 + (i 2).val) * 32 + (i 3).val) * 32 + (i 4).val
    = (((((((i 0).val * 127 + (i 1).val) * 32 + (i 2).val) * 32 + (i 3).val) * 32 + (i 4).val) * 1 + (i 5).val) * 1 + (i 6).val) * 1 + (i 7).val
  omega

/-- A transition array's result at (b, l, p, q, 0, 0): the argument's entry at (p, q). -/
theorem everywhere_apply (x : (⟨S32x32x1x1, .f32⟩ : BufTy).Contents (Elt Ideal)) (b : Fin 16) (l : Fin 128) (p q : Fin 32) (u v : Fin 1) :
    everywhere (flat x) (ix6 b l p q u v) = at2 x p q := by
  unfold everywhere
  refine (broadcastInDim_apply _ _ _ (ix6 b l p q u v) (ix6 (0 : Fin 1) (0 : Fin 1) p q (0 : Fin 1) (0 : Fin 1)) fun ax => ?_).trans ?_
  · match ax with
    | ⟨0, _⟩ => rfl
    | ⟨1, _⟩ => rfl
    | ⟨2, _⟩ => show p.val = if (32 : Nat) = 1 then 0 else p.val; rw [if_neg (by decide)]
    | ⟨3, _⟩ => show q.val = if (32 : Nat) = 1 then 0 else q.val; rw [if_neg (by decide)]
    | ⟨4, _⟩ => rfl
    | ⟨5, _⟩ => rfl
  · refine (shapeCast_apply (flat x) _ _ (ix2 p q) ?_).trans (flat_apply x p q)
    rw [Shape.rowMajor_val_two, Shape.rowMajor_val_six]
    show p.val * 32 + q.val = ((((0 * 1 + 0) * 32 + p.val) * 32 + q.val) * 1 + 0) * 1 + 0
    omega

/-- A TRANSITION ARRAY'S RESULT at an index: the argument's entry at the index's two labels. -/
theorem everywhere_at (x : (⟨S32x32x1x1, .f32⟩ : BufTy).Contents (Elt Ideal)) (i : S16x128x32x32x1x1.Idx) :
    everywhere (flat x) i = at2 x (i 2) (i 3) :=
  (congrArg (everywhere (flat x)) (eq_ix6 i)).trans (everywhere_apply x (i 0) (i 1) (i 2) (i 3) (i 4) (i 5))

end Cert.KernelIdeal.Whole

end
-- ==== Proof.RefAt.lean ====
/-
  The idealized reference's five results read at one index.

  The reference computes the same two Gaussian products with every operand first broadcast to the product's full
  index space: an emission row over (b, l, k) is placed at (b, l, ·, k, ·, ·, ·), a transition array over (p, q, 0, 0)
  at (·, ·, p, q, ·, ·, ·), and so on. Read at one index, a broadcast is its operand at the coordinates it keeps, a slice
  its operand at the same coordinates, and a reshape that only appends unit axes its operand at the leading
  coordinates; the arithmetic in between is pointwise. So each stage at an index is the corresponding scalar
  expression of the emission rows and the transition entries at that index's coordinates. The final sum over an
  axis of extent one adds the one term to zero.
-/
import proofs.«156737_j65566970741220_2_alg».proof.Proof.Gen.ReferenceIdeal.Read
import proofs.«156737_j65566970741220_2_alg».proof.Proof.Pointwise

set_option maxRecDepth 16384

noncomputable section

namespace Cert.ReferenceIdeal.Whole

open Cert.ReferenceIdeal Cert.ReferenceIdeal.Read Idealize.ShloMosaic Idealize.ShloMosaic.TcCoe
open Idealize.ShloMosaic.ValueIdx Cert.GaussProduct

variable (x0 : (⟨S16x128, .i32⟩ : BufTy).Contents (Elt Ideal))
variable (x1 x2 x3 x4 : (⟨S32x32x1x1, .f32⟩ : BufTy).Contents (Elt Ideal))
variable (x5 x6 : (⟨S50000x32, .f32⟩ : BufTy).Contents (Elt Ideal))

/-! ## The emission rows, placed at (b, l, ·, k, ·, ·, ·) -/

/-- The index of the emission rows that a reshape appending two unit axes reads, after the placing broadcast. -/
theorem rows_index (i : S16x128x1x32x1x1x1.Idx) : idx_main_v7 (idx_main_v16 i) = ix3 (i 0) (i 1) (i 3) := by
  have h0 : (i 0).val < 16 := (i 0).isLt
  have h1 : (i 1).val < 128 := (i 1).isLt
  have h3 : (i 3).val < 32 := (i 3).isLt
  funext a; apply Fin.ext
  match a with
  | ⟨0, _⟩ => show (((((i 0).val * 128 + (i 1).val) * 32 + (i 3).val) * 1 + 0) * 1 + 0) / 4096 = (i 0).val; omega
  | ⟨1, _⟩ => show (((((i 0).val * 128 + (i 1).val) * 32 + (i 3).val) * 1 + 0) * 1 + 0) / 32 % 128 = (i 1).val; omega
  | ⟨2, _⟩ => show (((((i 0).val * 128 + (i 1).val) * 32 + (i 3).val) * 1 + 0) * 1 + 0) % 32 = (i 3).val; omega

theorem rows_index' (i : S16x128x1x32x1x1x1.Idx) : idx_main_v15 (idx_main_v17 i) = ix3 (i 0) (i 1) (i 3) := by
  have h0 : (i 0).val < 16 := (i 0).isLt
  have h1 : (i 1).val < 128 := (i 1).isLt
  have h3 : (i 3).val < 32 := (i 3).isLt
  funext a; apply Fin.ext
  match a with
  | ⟨0, _⟩ => show (((((i 0).val * 128 + (i 1).val) * 32 + (i 3).val) * 1 + 0) * 1 + 0) / 4096 = (i 0).val; omega
  | ⟨1, _⟩ => show (((((i 0).val * 128 + (i 1).val) * 32 + (i 3).val) * 1 + 0) * 1 + 0) / 32 % 128 = (i 1).val; omega
  | ⟨2, _⟩ => show (((((i 0).val * 128 + (i 1).val) * 32 + (i 3).val) * 1 + 0) * 1 + 0) % 32 = (i 3).val; omega

/-- The emission means, placed. -/
theorem emisMu_at (i : S16x128x1x32x1x1x1.Idx) :
    val_main_v16 (F := Ideal) x0 x5 i = val_main_v6 (F := Ideal) x0 x5 (ix3 (i 0) (i 1) (i 3)) := by
  rw [val_main_v16_apply, val_main_v7_apply, rows_index]
  rfl

/-- The emission log-deviations, placed. -/
theorem emisVar_at (i : S16x128x1x32x1x1x1.Idx) :
    val_main_v17 (F := Ideal) x0 x6 i = val_main_v14 (F := Ideal) x0 x6 (ix3 (i 0) (i 1) (i 3)) := by
  rw [val_main_v17_apply, val_main_v15_apply, rows_index']
  rfl

/-- The emission variances `exp (2·v)`, placed. -/
theorem emisVariance_at (i : S16x128x1x32x1x1x1.Idx) :
    val_main_v22 (F := Ideal) x0 x6 i = Ideal.exp (two * val_main_v14 (F := Ideal) x0 x6 (ix3 (i 0) (i 1) (i 3))) := by
  rw [val_main_v22_apply, val_main_v21_apply, val_main_v20_apply, val_main_cst_apply, emisVar_at]
  rfl

/-! ## The child-transition arrays, placed at (·, ·, a, k, ·, ·, ·) -/

theorem childMu_at (i : S1x1x32x32x1x1x1.Idx) : val_main_v18 (F := Ideal) x3 i = at2 x3 (i 2) (i 3) := by
  rw [val_main_v18_apply]
  exact congrArg x3 (funext fun a => by match a with | ⟨0, _⟩ => rfl | ⟨1, _⟩ => rfl | ⟨2, _⟩ => rfl | ⟨3, _⟩ => rfl)

theorem childVar_at (i : S1x1x32x32x1x1x1.Idx) : val_main_v19 (F := Ideal) x4 i = at2 x4 (i 2) (i 3) := by
  rw [val_main_v19_apply]
  exact congrArg x4 (funext fun a => by match a with | ⟨0, _⟩ => rfl | ⟨1, _⟩ => rfl | ⟨2, _⟩ => rfl | ⟨3, _⟩ => rfl)

theorem childVariance_at (i : S1x1x32x32x1x1x1.Idx) :
    val_main_v25 (F := Ideal) x4 i = Ideal.exp (two * at2 x4 (i 2) (i 3)) := by
  rw [val_main_v25_apply, val_main_v24_apply, val_main_v23_apply, val_main_cst_3_apply, childVar_at]
  rfl

/-! ## The first product at (b, l, a, k, ·, ·, ·) -/

/-- The sum of the two variances. -/
theorem varSum_at (i : S16x128x32x32x1x1x1.Idx) :
    val_main_v28 (F := Ideal) x0 x4 x6 i = varSum (val_main_v14 (F := Ideal) x0 x6 (ix3 (i 0) (i 1) (i 3))) (at2 x4 (i 2) (i 3)) := by
  rw [val_main_v28_apply, val_main_v26_apply, val_main_v27_apply, emisVariance_at, childVariance_at]
  rfl

/-- THE MEANS' RESULT at an index. -/
theorem mean_at (i : S16x128x32x32x1x1x1.Idx) :
    val_main_v47 (F := Ideal) x0 x3 x4 x5 x6 i
      = meanPt (val_main_v6 (F := Ideal) x0 x5) (val_main_v14 (F := Ideal) x0 x6) x3 x4 (i 0) (i 1) (i 2) (i 3) := by
  rw [val_main_v47_apply, val_main_v46_apply, val_main_v42_apply, val_main_v45_apply, val_main_v40_apply, val_main_v41_apply,
    val_main_v43_apply, val_main_v44_apply, emisMu_at, childVariance_at, childMu_at, emisVariance_at, varSum_at]
  rfl

/-- THE LOG-DEVIATIONS' RESULT at an index. -/
theorem logDev_at (i : S16x128x32x32x1x1x1.Idx) :
    val_main_v53 (F := Ideal) x0 x4 x6 i = logDevPt (val_main_v14 (F := Ideal) x0 x6) x4 (i 0) (i 1) (i 2) (i 3) := by
  rw [val_main_v53_apply, val_main_v50_apply, val_main_v52_apply, val_main_v48_apply, val_main_v49_apply, val_main_v51_apply,
    val_main_cst_6_apply, val_main_v29_apply, emisVar_at, childVar_at, varSum_at]
  rfl

/-! ## The first product, sliced to all positions but the last and placed at (b, t, a, k, ·, ·, ·, ·, ·) -/

theorem mean_placed (j : S16x127x32x32x1x1x1x1x1.Idx) :
    val_main_v56 (F := Ideal) x0 x3 x4 x5 x6 j
      = meanPt (val_main_v6 (F := Ideal) x0 x5) (val_main_v14 (F := Ideal) x0 x6) x3 x4 (j 0) (inner (j 1)) (j 2) (j 3) := by
  rw [val_main_v56_apply, val_main_v55_apply, mean_at]
  rfl

theorem logDev_placed (j : S16x127x32x32x1x1x1x1x1.Idx) :
    val_main_v58 (F := Ideal) x0 x4 x6 j = logDevPt (val_main_v14 (F := Ideal) x0 x6) x4 (j 0) (inner (j 1)) (j 2) (j 3) := by
  rw [val_main_v58_apply, val_main_v57_apply, logDev_at]
  rfl

/-- The first product's variance `exp (2·v)`, placed. -/
theorem variance_placed (j : S16x127x32x32x1x1x1x1x1.Idx) :
    val_main_v63 (F := Ideal) x0 x4 x6 j
      = Ideal.exp (two * logDevPt (val_main_v14 (F := Ideal) x0 x6) x4 (j 0) (inner (j 1)) (j 2) (j 3)) := by
  rw [val_main_v63_apply, val_main_v62_apply, val_main_v61_apply, val_main_cst_8_apply, logDev_placed]
  rfl

/-! ## The parent-transition arrays, placed at (·, ·, ·, k, c, ·, ·, ·, ·) -/

theorem parentMu_at (k : S1x1x1x32x32x1x1x1x1.Idx) : val_main_v59 (F := Ideal) x1 k = at2 x1 (k 3) (k 4) := by
  rw [val_main_v59_apply]
  exact congrArg x1 (funext fun a => by match a with | ⟨0, _⟩ => rfl | ⟨1, _⟩ => rfl | ⟨2, _⟩ => rfl | ⟨3, _⟩ => rfl)

theorem parentVar_at (k : S1x1x1x32x32x1x1x1x1.Idx) : val_main_v60 (F := Ideal) x2 k = at2 x2 (k 3) (k 4) := by
  rw [val_main_v60_apply]
  exact congrArg x2 (funext fun a => by match a with | ⟨0, _⟩ => rfl | ⟨1, _⟩ => rfl | ⟨2, _⟩ => rfl | ⟨3, _⟩ => rfl)

theorem parentVariance_at (k : S1x1x1x32x32x1x1x1x1.Idx) :
    val_main_v66 (F := Ideal) x2 k = Ideal.exp (two * at2 x2 (k 3) (k 4)) := by
  rw [val_main_v66_apply, val_main_v65_apply, val_main_v64_apply, val_main_cst_9_apply, parentVar_at]
  rfl

/-! ## The second product at (b, t, a, k, c, ·, ·, ·, ·) -/

/-- The sum of the two variances. -/
theorem varSum2_at (i : S16x127x32x32x32x1x1x1x1.Idx) :
    val_main_v69 (F := Ideal) x0 x2 x4 x6 i
      = varSum (logDevPt (val_main_v14 (F := Ideal) x0 x6) x4 (i 0) (inner (i 1)) (i 2) (i 3)) (at2 x2 (i 3) (i 4)) := by
  rw [val_main_v69_apply, val_main_v67_apply, val_main_v68_apply, variance_placed, parentVariance_at]
  rfl

/-- The scale before the sum over the trailing unit axis. -/
theorem scale_placed (i : S16x127x32x32x32x1x1x1x1.Idx) :
    val_main_v80 (F := Ideal) x0 x1 x2 x3 x4 x5 x6 i
      = scalePt (val_main_v6 (F := Ideal) x0 x5) (val_main_v14 (F := Ideal) x0 x6) x1 x2 x3 x4 (i 0) (i 1) (i 2) (i 3) (i 4) := by
  rw [val_main_v80_apply, val_main_v79_apply, val_main_cst_11_apply, val_main_v78_apply, val_main_v72_apply, val_main_v71_apply,
    val_main_cst_10_apply, val_main_v70_apply, val_main_v77_apply, val_main_v76_apply, val_main_v75_apply, val_main_v73_apply,
    val_main_v74_apply, mean_placed, parentMu_at, varSum2_at]
  rfl

/-- THE SCALES' RESULT at an index: the sum over the unit axis is its one term added to zero. -/
theorem scale_at (i : S16x127x32x32x32x1x1x1.Idx) :
    val_main_v95 (F := Ideal) x0 x1 x2 x3 x4 x5 x6 i
      = scalePt (val_main_v6 (F := Ideal) x0 x5) (val_main_v14 (F := Ideal) x0 x6) x1 x2 x3 x4 (i 0) (i 1) (i 2) (i 3) (i 4) := by
  rw [val_main_v95_apply, Fin.sum_univ_one, scale_placed, val_main_cst_13_apply]
  show Ideal.ofBits .f32 0x00000000#32
      + scalePt (val_main_v6 (F := Ideal) x0 x5) (val_main_v14 (F := Ideal) x0 x6) x1 x2 x3 x4 (i 0) (i 1) (i 2) (i 3) (i 4) = _
  rw [Ideal.ofBits_zero_f32, zero_add]

/-! ## The two broadcast results -/

theorem parentMu_everywhere (i : S16x128x32x32x1x1.Idx) : val_main_v97 (F := Ideal) x1 i = at2 x1 (i 2) (i 3) := by
  rw [val_main_v97_apply, val_main_v96_apply]
  exact congrArg x1 (funext fun a => by match a with | ⟨0, _⟩ => rfl | ⟨1, _⟩ => rfl | ⟨2, _⟩ => rfl | ⟨3, _⟩ => rfl)

theorem parentVar_everywhere (i : S16x128x32x32x1x1.Idx) : val_main_v99 (F := Ideal) x2 i = at2 x2 (i 2) (i 3) := by
  rw [val_main_v99_apply, val_main_v98_apply]
  exact congrArg x2 (funext fun a => by match a with | ⟨0, _⟩ => rfl | ⟨1, _⟩ => rfl | ⟨2, _⟩ => rfl | ⟨3, _⟩ => rfl)

end Cert.ReferenceIdeal.Whole

end
-- ==== Proof.Bridge.lean ====
/-
  The two programs compute the same five arrays.

  Each result is named once, as a function of the seven arguments that mentions neither program: the scale of the
  second Gaussian product at (b, t, a, k, c), the mean and the log-deviation of the first at (b, l, a, k), and the two
  parent-transition arrays repeated over every batch row and position. The idealized kernel's results are these
  functions (its two pallas_calls and the reshapes around them), and so are the idealized reference's (its broadcasts,
  its slice and its sum over a unit axis): the same operations of the same operands in the same order and grouping, so
  no law of arithmetic is needed beyond `0 + x = x` for that sum, and nothing is asked of the inputs. The rows that
  the tokens select from the emission tables are one and the same term in both programs, and are never opened.
-/
import proofs.«156737_j65566970741220_2_alg».proof.Proof.KernelAt
import proofs.«156737_j65566970741220_2_alg».proof.Proof.RefAt

set_option maxRecDepth 16384

noncomputable section

namespace Cert.Bridge

open Cert.KernelIdeal Cert.KernelIdeal.Gen Cert.KernelIdeal.Whole Idealize.ShloMosaic Idealize.ShloMosaic.TcCoe Idealize.SL.Sem
open Idealize.ShloMosaic.ValueIdx Cert.GaussProduct

/-! ## The five results, named once -/

section Named

variable (tokens : (⟨S16x128, .i32⟩ : BufTy).Contents (Elt Ideal))
variable (pμ pv cμ cv : (⟨S32x32x1x1, .f32⟩ : BufTy).Contents (Elt Ideal))
variable (tμ tv : (⟨S50000x32, .f32⟩ : BufTy).Contents (Elt Ideal))

/-- The second product's scale at (b, t, a, k, c, 0, 0, 0). -/
def scaleRes : S16x127x32x32x32x1x1x1.Idx → Ideal .f32 :=
  fun i => scalePt (rowsOf tokens tμ) (rowsOf tokens tv) pμ pv cμ cv (i 0) (i 1) (i 2) (i 3) (i 4)

/-- The first product's mean at (b, l, a, k, 0, 0, 0). -/
def meanRes : S16x128x32x32x1x1x1.Idx → Ideal .f32 :=
  fun i => meanPt (rowsOf tokens tμ) (rowsOf tokens tv) cμ cv (i 0) (i 1) (i 2) (i 3)

/-- The first product's log-deviation at (b, l, a, k, 0, 0, 0). -/
def logDevRes : S16x128x32x32x1x1x1.Idx → Ideal .f32 :=
  fun i => logDevPt (rowsOf tokens tv) cv (i 0) (i 1) (i 2) (i 3)

/-- A transition array repeated over every batch row and position: at (b, l, p, q, 0, 0) its entry (p, q). -/
def transRes (x : (⟨S32x32x1x1, .f32⟩ : BufTy).Contents (Elt Ideal)) : S16x128x32x32x1x1.Idx → Ideal .f32 :=
  fun i => at2 x (i 2) (i 3)

/-! ## The reference's stages are these functions -/

/-- The rows the tokens select are one term in both programs. -/
theorem rows_mu : Cert.ReferenceIdeal.Read.val_main_v6 (F := Ideal) tokens tμ = rowsOf tokens tμ := rfl
theorem rows_var : Cert.ReferenceIdeal.Read.val_main_v14 (F := Ideal) tokens tv = rowsOf tokens tv := rfl

theorem ref_scale : Cert.ReferenceIdeal.Read.val_main_v95 (F := Ideal) tokens pμ pv cμ cv tμ tv = scaleRes tokens pμ pv cμ cv tμ tv := by
  funext i
  rw [Cert.ReferenceIdeal.Whole.scale_at, rows_mu, rows_var]
  rfl

theorem ref_mean : Cert.ReferenceIdeal.Read.val_main_v47 (F := Ideal) tokens cμ cv tμ tv = meanRes tokens cμ cv tμ tv := by
  funext i
  rw [Cert.ReferenceIdeal.Whole.mean_at, rows_mu, rows_var]
  rfl

theorem ref_logDev : Cert.ReferenceIdeal.Read.val_main_v53 (F := Ideal) tokens cv tv = logDevRes tokens cv tv := by
  funext i
  rw [Cert.ReferenceIdeal.Whole.logDev_at, rows_var]
  rfl

theorem ref_parentMu : Cert.ReferenceIdeal.Read.val_main_v97 (F := Ideal) pμ = transRes pμ := by
  funext i
  rw [Cert.ReferenceIdeal.Whole.parentMu_everywhere]
  rfl

theorem ref_parentVar : Cert.ReferenceIdeal.Read.val_main_v99 (F := Ideal) pv = transRes pv := by
  funext i
  rw [Cert.ReferenceIdeal.Whole.parentVar_everywhere]
  rfl

end Named

/-! ## The kernel's results are these functions -/

variable (m : (ℓ : Loc nD τ sig) → Buf (Elt Ideal) ℓ) (ρ : Dev nD → PrngReg)

theorem ker_scale (c : Dev nD) : W5 m ρ c (Proc.devRef .tc main_v24)
    = scaleRes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [result_scale]
  funext i
  exact result_scale_at m c i

theorem ker_mean (c : Dev nD) : W5 m ρ c (Proc.devRef .tc main_v25)
    = meanRes (m ((c : Thread nD τ).loc main_arg0)) (m ((c : Thread nD τ).loc main_arg3)) (m ((c : Thread nD τ).loc main_arg4))
        (m ((c : Thread nD τ).loc main_arg5)) (m ((c : Thread nD τ).loc main_arg6)) := by
  rw [result_mean]
  funext i
  exact result_mean_at m c i

theorem ker_logDev (c : Dev nD) : W5 m ρ c (Proc.devRef .tc main_v26)
    = logDevRes (m ((c : Thread nD τ).loc main_arg0)) (m ((c : Thread nD τ).loc main_arg4)) (m ((c : Thread nD τ).loc main_arg6)) := by
  rw [result_logDev]
  funext i
  exact result_logDev_at m c i

theorem ker_parentMu (c : Dev nD) : W5 m ρ c (Proc.devRef .tc main_v28) = transRes (m ((c : Thread nD τ).loc main_arg1)) := by
  rw [result_parentMu]
  funext i
  exact everywhere_at _ i

theorem ker_parentVar (c : Dev nD) : W5 m ρ c (Proc.devRef .tc main_v30) = transRes (m ((c : Thread nD τ).loc main_arg2)) := by
  rw [result_parentVar]
  funext i
  exact everywhere_at _ i

end Cert.Bridge

end
-- ==== Proof.lean ====
/-
  The claim: a latent-variable CRF's two Gaussian-product stages, as two pallas_calls against a plain jnp reference,
  equal on the extended reals.

  From emission tables indexed by tokens and four label × label transition arrays the program computes, in the
  log-standard-deviation parameterisation, the product of each emission Gaussian with each child transition (its mean
  and log-deviation over (b, l, a, k)), then, for every position but the last, the scale of the product of that
  Gaussian with each parent transition (over (b, t, a, k, c)), and returns these with the parent-transition arrays
  repeated over batch rows and positions.

  The kernel gathers the rows on the host, runs one pallas_call per product — the first over batch rows, the second
  over blocks of 1016 flattened rows — and reshapes; the reference broadcasts every operand to the full index space
  and sums the scale over a trailing axis of extent one. At the ideal instance both are the same operations of the
  same operands, in the same order and grouping, at every index: only the layout differs, and the reference's sum adds
  its one term to zero. So the claim needs no property of the inputs, and the precondition is never opened.

  The parts: the three frames are the generated ones (the reference's is its generated run with the results
  dropped); the idealization rewrote nothing, so `preserves` is `True`; `algebraic` posts both runs at the same five
  functions of the arguments (Proof/Bridge.lean) — the kernel's run read at every buffer (Proof/KernelRun.lean), each
  pallas_call's result arrays as one whole-array function (Proof/Region0.lean, Proof/Region1.lean, over the bodies'
  arithmetic in Proof/Payload0.lean, Proof/Payload1.lean), the host operations around them (Proof/KernelValue.lean),
  and both sides read at an index (Proof/KernelAt.lean, Proof/RefAt.lean).
-/
import proofs.«156737_j65566970741220_2_alg».proof.Defs
import proofs.«156737_j65566970741220_2_alg».proof.Proof.Gen.Kernel
import proofs.«156737_j65566970741220_2_alg».proof.Proof.Gen.Kernel.Skeleton
import proofs.«156737_j65566970741220_2_alg».proof.Proof.Gen.Kernel.Launch
import proofs.«156737_j65566970741220_2_alg».proof.Proof.Gen.Kernel.Points
import proofs.«156737_j65566970741220_2_alg».proof.Proof.Gen.Kernel.Frame
import proofs.«156737_j65566970741220_2_alg».proof.Proof.Gen.KernelIdeal
import proofs.«156737_j65566970741220_2_alg».proof.Proof.Gen.KernelIdeal.Skeleton
import proofs.«156737_j65566970741220_2_alg».proof.Proof.Gen.KernelIdeal.Launch
import proofs.«156737_j65566970741220_2_alg».proof.Proof.Gen.KernelIdeal.Points
import proofs.«156737_j65566970741220_2_alg».proof.Proof.Gen.KernelIdeal.Frame
import proofs.«156737_j65566970741220_2_alg».proof.Proof.Gen.ReferenceIdeal
import proofs.«156737_j65566970741220_2_alg».proof.Proof.Gen.Pre_finite_inputs
import proofs.«156737_j65566970741220_2_alg».proof.Proof.Gen.ReferenceIdeal.Run
import proofs.«156737_j65566970741220_2_alg».proof.Proof.Gen.ReferenceIdeal.Read
import proofs.«156737_j65566970741220_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

/-- From memories that agree on the seven arguments both idealized programs end with the same five arrays: the
    functions of the arguments named in Proof/Bridge.lean. -/
theorem algebraic : Cert.algebraic_KernelIdeal_ReferenceIdeal := by
  intro m ρ m' ρ' _ hagree
  refine ⟨
    fun c => Cert.Bridge.scaleRes (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    fun c => Cert.Bridge.meanRes (m ((c : Thread Cert.KernelIdeal.nD Cert.KernelIdeal.τ).loc Cert.KernelIdeal.main_arg0))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    fun c => Cert.Bridge.logDevRes (m ((c : Thread Cert.KernelIdeal.nD Cert.KernelIdeal.τ).loc Cert.KernelIdeal.main_arg0))
      (m ((c : Thread Cert.KernelIdeal.nD Cert.KernelIdeal.τ).loc Cert.KernelIdeal.main_arg4))
      (m ((c : Thread Cert.KernelIdeal.nD Cert.KernelIdeal.τ).loc Cert.KernelIdeal.main_arg6)),
    fun c => Cert.Bridge.transRes (m ((c : Thread Cert.KernelIdeal.nD Cert.KernelIdeal.τ).loc Cert.KernelIdeal.main_arg1)),
    fun c => Cert.Bridge.transRes (m ((c : Thread Cert.KernelIdeal.nD Cert.KernelIdeal.τ).loc Cert.KernelIdeal.main_arg2)),
    ?_, ?_⟩
  · -- the kernel: its run read at the five results and the seven arguments
    refine (θ_run Cert.KernelIdeal.defs _ _).mono (fun r h c => ?_) (Cert.KernelIdeal.Whole.run_all m ρ)
    exact ⟨(h c _ (Cert.KernelIdeal.Whole.mem_unscoped Cert.KernelIdeal.main_v24 (by decide))).trans (Cert.Bridge.ker_scale m ρ c),
      (h c _ (Cert.KernelIdeal.Whole.mem_unscoped Cert.KernelIdeal.main_v25 (by decide))).trans (Cert.Bridge.ker_mean m ρ c),
      (h c _ (Cert.KernelIdeal.Whole.mem_unscoped Cert.KernelIdeal.main_v26 (by decide))).trans (Cert.Bridge.ker_logDev m ρ c),
      (h c _ (Cert.KernelIdeal.Whole.mem_unscoped Cert.KernelIdeal.main_v28 (by decide))).trans (Cert.Bridge.ker_parentMu m ρ c),
      (h c _ (Cert.KernelIdeal.Whole.mem_unscoped Cert.KernelIdeal.main_v30 (by decide))).trans (Cert.Bridge.ker_parentVar m ρ c),
      (h c _ (Cert.KernelIdeal.Whole.mem_unscoped Cert.KernelIdeal.main_arg0 (by decide))).trans (Cert.KernelIdeal.Gen.W5_main_arg0 m ρ c),
      (h c _ (Cert.KernelIdeal.Whole.mem_unscoped Cert.KernelIdeal.main_arg1 (by decide))).trans (Cert.KernelIdeal.Gen.W5_main_arg1 m ρ c),
      (h c _ (Cert.KernelIdeal.Whole.mem_unscoped Cert.KernelIdeal.main_arg2 (by decide))).trans (Cert.KernelIdeal.Gen.W5_main_arg2 m ρ c),
      (h c _ (Cert.KernelIdeal.Whole.mem_unscoped Cert.KernelIdeal.main_arg3 (by decide))).trans (Cert.KernelIdeal.Gen.W5_main_arg3 m ρ c),
      (h c _ (Cert.KernelIdeal.Whole.mem_unscoped Cert.KernelIdeal.main_arg4 (by decide))).trans (Cert.KernelIdeal.Gen.W5_main_arg4 m ρ c),
      (h c _ (Cert.KernelIdeal.Whole.mem_unscoped Cert.KernelIdeal.main_arg5 (by decide))).trans (Cert.KernelIdeal.Gen.W5_main_arg5 m ρ c),
      (h c _ (Cert.KernelIdeal.Whole.mem_unscoped Cert.KernelIdeal.main_arg6 (by decide))).trans (Cert.KernelIdeal.Gen.W5_main_arg6 m ρ c)⟩
  · -- the reference: its run, each result's term the stage, the arguments' agreement rewritten
    refine (θ_run Cert.ReferenceIdeal.defs _ _).mono (fun r h c => ?_) (Cert.ReferenceIdeal.Value.run (F := Ideal) m' ρ')
    obtain ⟨h0, h1, h2, h3, h4, hargs⟩ := h c
    obtain ⟨a0, a1, a2, a3, a4, a5, a6⟩ := hagree c
    refine ⟨?_, ?_, ?_, ?_, ?_, hargs⟩
    · rw [h0, Cert.ReferenceIdeal.Read.val_main_v95_eq, a0, a1, a2, a3, a4, a5, a6]
      exact Cert.Bridge.ref_scale _ _ _ _ _ _ _
    · refine h1.trans ((Cert.ReferenceIdeal.Read.val_main_v47_eq _ _ _ _ _).trans ?_)
      rw [a0, a3, a4, a5, a6]
      exact Cert.Bridge.ref_mean _ _ _ _ _
    · refine h2.trans ((Cert.ReferenceIdeal.Read.val_main_v53_eq _ _ _).trans ?_)
      rw [a0, a4, a6]
      exact Cert.Bridge.ref_logDev _ _ _
    · refine h3.trans ((Cert.ReferenceIdeal.Read.val_main_v97_eq _).trans ?_)
      rw [a1]
      exact Cert.Bridge.ref_parentMu _
    · refine h4.trans ((Cert.ReferenceIdeal.Read.val_main_v99_eq _).trans ?_)
      rw [a2]
      exact Cert.Bridge.ref_parentVar _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
